-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2 : Shape := ⟨1, ![2]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2 : S_.BroadcastsInDim S2 (![] : Fin 0 → Fin S2.rank)
  reducesTo_S2_S_d0 : S2.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : FVec F S100000x128 .f32) (main_arg2 : IVec S2x1600000 32) (main_arg3 : FVec F S2 .f32) (main_arg4 : FVec F S128x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S2 : Shape := ⟨1, ![2]⟩
abbrev S128x128 : Shape := ⟨2, ![128, 128]⟩
abbrev S128 : Shape := ⟨1, ![128]⟩
abbrev S5000x128 : Shape := ⟨2, ![5000, 128]⟩
abbrev S1 : Shape := ⟨1, ![1]⟩
abbrev S1x1 : Shape := ⟨2, ![1, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2x128 : Shape := ⟨2, ![2, 128]⟩

abbrev nBuf : Space → Nat
  | .hbm => 49
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S2, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S100000x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S2x128, .f32⟩
  | .hbm, ⟨32, _⟩ => ⟨S1x128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S2, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S2x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S2_S2_0 : ∀ a, (![0] : Fin 1 → Nat) a + S2.size a ≤ S2.size a
  h_S2 : 0 < S2.numel
  slices_S2_o0_S1 : S2.Slices ![0] S1
  slices_S2_o1_S1 : S2.Slices ![1] S1
  inb_S5000x128_S5000x128_0_0 : ∀ a, (![0, 0] : Fin 2 → Nat) a + S5000x128.size a ≤ S5000x128.size a
  h_S5000x128 : 0 < S5000x128.numel
  shapeCasts_S1_S1x1 : S1.ShapeCasts S1x1
  broadcasts_S1x1_S5000x128 : S1x1.Broadcasts S5000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S2x128_S2x128_0_0 : ∀ a, (![0, 0] : Fin 2 → Nat) a + S2x128.size a ≤ S2x128.size a
  h_S2x128 : 0 < S2x128.numel
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2.size a ≤ S2.size a
  hwx0_0 : ∀ i : grid0.Coords, EltTy.bits .f32 = 32 ∨ (Rect.block (s := S2) S2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x128.size a ≤ S2x128.size a
  hwx1_7 : ∀ i : grid1.Coords, EltTy.bits .f32 = 32 ∨ (Rect.block (s := S2x128) S2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg3) S2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17_1) S2x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v17_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2 : Shape := ⟨1, ![2]⟩
abbrev S128x128 : Shape := ⟨2, ![128, 128]⟩
abbrev S128 : Shape := ⟨1, ![128]⟩
abbrev S_ : Shape := ⟨0, ![]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S2, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S2, .f32⟩
  | .hbm, ⟨15, _⟩ => ⟨S_, .f32⟩
  | .hbm, ⟨16, _⟩ => ⟨S2, .f32⟩
  | .hbm, ⟨17, _⟩ => ⟨S2, .f32⟩
  | .hbm, ⟨18, _⟩ => ⟨S1, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S1, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_cst_3 : Ref sig .tc := ⟨.hbm, 78, rfl⟩
abbrev main_call0_v12 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_7 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩

abbrev nD : Nat := 1
abbrev τ : Topo := Topo.v7x

variable {F : FTy → Type} [FloatOps F]

class Facts₀ : Prop where
  bcast_S_S2 : S_.BroadcastsInDim S2 (![] : Fin 0 → Fin S2.rank)
  slices_S2_S1_0 : S2.Slices ![0] S1
  shapeCasts_S1_S_ : S1.ShapeCasts S_
  bcast_S_S100000x128 : S_.BroadcastsInDim S100000x128 (![] : Fin 0 → Fin S100000x128.rank)
  slices_S2_S1_1 : S2.Slices ![1] S1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
import proofs.«149305_j21114059227218_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main with its result kept

The final memory holds, at the result array, the last boundary's contents; every argument array is as launched. -/

set_option backward.isDefEq.respectTransparency.types false in
/-- Every weakly fair execution of @main terminates without fault; in every final state the result array holds the
    contents the last region leaves and each argument array holds what it was launched with. -/
theorem run : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

/-! # The boundary contents at the regions' output arrays -/

/-- The result array at the last boundary is what region 2's write-backs leave. -/
theorem W5_res (c : Dev nD) :
    W5 m ρ c (Proc.devRef .tc main_v32) = (dat2 (V4 m ρ) c).arrAt 5 cfg2.N :=
  W5_arr m ρ c 5

/-- Region 1's row output at its exit. -/
theorem W3_h2 (c : Dev nD) :
    W3 m ρ c (Proc.devRef .tc main_v17_0) = (dat1 (V2 m ρ) c).arrAt 6 cfg1.N :=
  W3_arr m ρ c 6

/-- Region 1's accumulated output at its exit. -/
theorem W3_stats (c : Dev nD) :
    W3 m ρ c (Proc.devRef .tc main_v17_1) = (dat1 (V2 m ρ) c).arrAt 7 cfg1.N :=
  W3_arr m ρ c 7

/-- Region 0's output at its exit. -/
theorem W1_mixed (c : Dev nD) :
    W1 m ρ c (Proc.devRef .tc main_v0) = (dat0 (V0 m ρ) c).arrAt 3 cfg0.N :=
  W1_arr m ρ c 3

/-! # Buffers a segment leaves alone -/

/-- The host operations between regions 0 and 1 do not write region 0's output. -/
theorem W2_mixed (c : Dev nD) : W2 m ρ c (Proc.devRef .tc main_v0) = W1 m ρ c (Proc.devRef .tc main_v0) :=
  StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 0 and the host operations after it leave this argument as launched. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- Region 0 and the host operations after it leave this argument as launched. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-- Region 0 and the host operations after it leave this argument as launched. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-- Region 0 and the host operations after it leave this argument as launched. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl

/-- Regions 0 and 1 and the host operations between them leave this argument as launched. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-- Regions 0 and 1 and the host operations between them leave this argument as launched. -/
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-- The host operations between regions 1 and 2 do not write region 1's row output. -/
theorem W4_h2 (c : Dev nD) : W4 m ρ c (Proc.devRef .tc main_v17_0) = W3 m ρ c (Proc.devRef .tc main_v17_0) :=
  StableHlo.after_of_forall_not_mem (b := Proc.devRef .tc main_v17_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 0 leaves this argument as launched. -/
theorem W1_main_arg2 (c : Dev nD) : W1 m ρ c (Proc.devRef .tc main_arg2) = m ((c : Thread nD τ).loc main_arg2) :=
  (W1_of_ne m ρ c main_arg2 (by decide)).trans rfl

/-- Region 0 leaves this argument as launched. -/
theorem W1_main_arg5 (c : Dev nD) : W1 m ρ c (Proc.devRef .tc main_arg5) = m ((c : Thread nD τ).loc main_arg5) :=
  (W1_of_ne m ρ c main_arg5 (by decide)).trans rfl

/-- Region 0 leaves this argument as launched. -/
theorem W1_main_arg7 (c : Dev nD) : W1 m ρ c (Proc.devRef .tc main_arg7) = m ((c : Thread nD τ).loc main_arg7) :=
  (W1_of_ne m ρ c main_arg7 (by decide)).trans rfl

/-- Region 0 reads the three arguments it combines as launched. -/
theorem V0_apply (c : Dev nD) (b : Ref sig .tc) : V0 m ρ c b = m ((c : Thread nD τ).loc b) := rfl

end Cert.KernelIdeal.KRun

end
-- ==== Proof.Region0.lean ====
import proofs.«149305_j21114059227218_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.SL.Sem
open Idealize.ShloMosaic.ValueIdx
open Idealize.ShloMosaic.Pipeline (Dat)
open Cert.KernelIdeal.Gen

/-! # Region 0: the gated mix of two arrays

Every row block of the output is `σ(g₀) · a + σ(g₁) · b` of the same row block of the two inputs, `σ` the logistic
function and `g` the two-element gate vector; the twenty row blocks tile the array. -/

theorem hz2 : (![0, 0] : Fin 2 → Nat) = fun _ => 0 := funext fun a => by fin_cases a <;> rfl
theorem hz1 : (![0] : Fin 1 → Nat) = fun _ => 0 := funext fun a => by fin_cases a <;> rfl

/-- The mix, index by index, as one function of the gate vector and the two arrays. -/
def mixed (g : S2.Idx → EReal) (a b : S100000x128.Idx → EReal) : S100000x128.Idx → EReal :=
  fun i => Ideal.logistic (g (ix1 (0 : Fin 2))) * a i + Ideal.logistic (g (ix1 (1 : Fin 2))) * b i

/-- One gate, broadcast over a block: element `k` of the logistic of the gate vector. -/
theorem gate_apply (x0 : Vec Ideal S2 .f32) (off : Nat) (k : Fin 2) (hk : k.val = off) (p : Fin 5000) (q : Fin 128)
    (h : S2.Slices ![off] S1) :
    (broadcastTo S5000x128 (shapeCast S1x1 (extractStridedSlice S1 ![off]
        (logistic (F := Ideal) (s := S2) (φ := .f32) x0) h) shapeCasts_S1_S1x1)
        broadcasts_S1x1_S5000x128 (ix2 p q) : EReal) = Ideal.logistic (x0 (ix1 k)) := by
  refine (broadcastTo_apply _ _ (ix2 p q) (ix2 (0 : Fin 1) (0 : Fin 1)) fun ax => ?_).trans ?_
  · match ax with
    | ⟨0, _⟩ => rfl
    | ⟨1, _⟩ => rfl
  refine (shapeCast_a_1a_apply _ _ (0 : Fin 1) (0 : Fin 1)).trans ?_
  refine (extractStridedSlice_apply _ _ _ (ix1 (0 : Fin 1)) (ix1 k) fun a => ?_).trans rfl
  match a with
  | ⟨0, _⟩ => show k.val = off + 0; omega

/-- The body's payload at an index of the block. -/
theorem pay_apply (x0 : Vec Ideal S2 .f32) (x1 x2 : Vec Ideal S5000x128 .f32) (p : Fin 5000) (q : Fin 128) :
    k0_pay1 x0 x1 x2 (ix2 p q)
      = Ideal.logistic (x0 (ix1 (0 : Fin 2))) * x1 (ix2 p q) + Ideal.logistic (x0 (ix1 (1 : Fin 2))) * x2 (ix2 p q) := by
  unfold k0_pay1
  rw [addf_apply, mulf_apply, mulf_apply]
  rw [gate_apply x0 0 (0 : Fin 2) rfl p q slices_S2_o0_S1, gate_apply x0 1 (1 : Fin 2) rfl p q slices_S2_o1_S1]

/-- The payload of blocks that read the arrays where the output block lies is the mix there. -/
theorem pay_eq_mixed (x0 : Vec Ideal S2 .f32) (x1 x2 : Vec Ideal S5000x128 .f32)
    (g : S2.Idx → EReal) (a b : S100000x128.Idx → EReal) (i : S100000x128.Idx) (j : S5000x128.Idx)
    (h0 : x0 = g) (h1 : x1 j = a i) (h2 : x2 j = b i) : k0_pay1 x0 x1 x2 j = mixed g a b i := by
  obtain ⟨p, q, rfl⟩ : ∃ (p : Fin 5000) (q : Fin 128), j = ix2 p q := ⟨j 0, j 1, eq_ix2 j⟩
  rw [pay_apply, h0, h1, h2]
  rfl

/-- The windows' block indices over the grid: the gate vector's window stays at block 0, the two inputs' windows
    move with the output's, which walks down the twenty row blocks. -/
theorem idx_facts : ∀ t : Fin cfg0.N, win0_0.index t (0 : Fin 1) = 0
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 19
    ∧ win0_3.index t (1 : Fin 2) = 0 :=
  (by decide +kernel : ∀ t : Fin grid0.N, _)

/-- Every row block is some point's. -/
theorem idx_onto : ∀ (q0 : Fin 20), ∃ t : Fin cfg0.N, win0_3.index t = ![q0.val, 0] :=
  (by decide +kernel : ∀ (q0 : Fin 20), ∃ t : Fin grid0.N, win0_3.index t = ![q0.val, 0])

variable (V : (c : Dev nD) → (b : Ref sig .tc) → Buf (Elt Ideal) ((c : Thread nD τ).loc b))

/-- What point `t` writes back is block `t` of the mix of the arrays as the region finds them. -/
theorem flushed_eq (c : Dev nD) (t : Fin cfg0.N) :
    (dat0 V c).flushed 3 t
      = ((cfg0.win 3).blk t).view.read (Elt Ideal) (mixed (V c main_arg3) (V c main_arg0) (V c main_arg1)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S2) hz1]
  obtain ⟨e0, e1, e2, e3, e4, e5, e6⟩ := idx_facts t
  funext j
  refine pay_eq_mixed _ _ _ (V c main_arg3) (V c main_arg0) (V c main_arg1) (((cfg0.win 3).blk t).view.emb j) j ?_ ?_ ?_
  · funext y
    show V c main_arg3 (((cfg0.win 0).blk t).view.emb y) = V c main_arg3 y
    refine congrArg _ ?_
    funext a; apply Fin.ext
    match a with
    | ⟨0, _⟩ => show win0_0.index t (0 : Fin 1) * 2 + 1 * (y 0).val = (y 0).val; omega
  · show V c main_arg0 (((cfg0.win 1).blk t).view.emb j) = V c main_arg0 (((cfg0.win 3).blk t).view.emb j)
    refine congrArg _ ?_
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  · show V c main_arg1 (((cfg0.win 2).blk t).view.emb j) = V c main_arg1 (((cfg0.win 3).blk t).view.emb j)
    refine congrArg _ ?_
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Row `r` lies in the block of the point whose block index is `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the mix of the arrays as the region finds them. -/
theorem arr_eq (c : Dev nD) :
    (dat0 V c).arrAt 3 cfg0.N = mixed (V c main_arg3) (V c main_arg0) (V c main_arg1) :=
  (dat0 V c).arrAt_eq_of_cover 3 (mixed (V c main_arg3) (V c main_arg0) (V c main_arg1))
    (fun t _ => flushed_eq V c t) cover

/-- The same, read at row `r` and lane `q`. -/
theorem arr_mixed (c : Dev nD) (r : Fin 100000) (q : Fin 128) :
    (dat0 V c).arrAt 3 cfg0.N (ix2 r q)
      = Ideal.logistic (V c main_arg3 (ix1 (0 : Fin 2))) * V c main_arg0 (ix2 r q)
        + Ideal.logistic (V c main_arg3 (ix1 (1 : Fin 2))) * V c main_arg1 (ix2 r q) := by
  rw [arr_eq V c]
  rfl

end Cert.KernelIdeal.Region0

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.Region1Pay.lean ====
import proofs.«149305_j21114059227218_1_alg».proof.Proof.Gen.KernelIdeal.Skeleton
import proofs.«149305_j21114059227218_1_alg».proof.Proof.LibPlainDot
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Region1

open Cert.KernelIdeal Cert.KernelIdeal.Gen

/-- The two-layer perceptron on one row: the row of `h + a` times `W1`, plus `b1`, clipped below at zero, times
    `W2`, plus `b2` — entry `q` of the output row. The row is given by its entries `xa j`. -/
def mlpRow (xa : Fin 128 → EReal) (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal) (q : Fin 128) : EReal :=
  (∑ k : Fin 128, max ((∑ j : Fin 128, xa j * W1 (ix2 j k)) + b1 (ix2 (0 : Fin 1) k)) 0 * W2 (ix2 k q)) + b2 (ix2 (0 : Fin 1) q)

/-- The dimension numbers of both products are the plain ones: rows by columns. -/
theorem dot_plain : dot_S5000x128_S128x128_S5000x128_1_0_0_1_n_n = DotDims.plain 5000 128 128 := rfl

/-- The stored block at row `s`, column `q`: the perceptron of row `s` of the two loaded blocks' sum. -/
theorem pay3_apply (x0 x1 : Vec Ideal S5000x128 .f32) (x2 : Vec Ideal S128x128 .f32) (x3 : Vec Ideal S1x128 .f32)
    (x4 : Vec Ideal S128x128 .f32) (x5 : Vec Ideal S1x128 .f32) (s : Fin 5000) (q : Fin 128) :
    k1_pay3 (F := Ideal) x0 x1 x2 x3 x4 x5 (ix2 s q)
      = mlpRow (fun j => x0 (ix2 s j) + x1 (ix2 s j)) x2 x3 x4 x5 q := by
  unfold k1_pay3 mlpRow
  dsimp only
  refine (addf_apply _ _ _).trans ?_
  refine congrArg₂ (· + ·) ?_ ?_
  · refine (Cert.Lib.PlainDot.matmul_zero_apply _ dot_plain none _ _ s q).trans ?_
    refine Finset.sum_congr rfl fun k _ => ?_
    refine congrArg₂ (· * ·) ?_ rfl
    refine (truncf_apply (φ := .f32) (ψ := .bf16) _ _ _).trans ?_
    refine (maximumf_apply _ _ _).trans ?_
    refine congrArg₂ max ?_ Ideal.ofBits_zero_f32
    refine (addf_apply _ _ _).trans ?_
    refine congrArg₂ (· + ·) ?_ ?_
    · refine (Cert.Lib.PlainDot.matmul_zero_apply _ dot_plain none _ _ s k).trans ?_
      refine Finset.sum_congr rfl fun j _ => ?_
      refine congrArg₂ (· * ·) ?_ rfl
      refine (truncf_apply (φ := .f32) (ψ := .bf16) _ _ _).trans ?_
      refine (addf_apply _ _ _).trans ?_
      rw [shapeCast_self, shapeCast_self]
    · refine (broadcastTo_1b_ab_apply _ _ s k).trans ?_
      rw [shapeCast_self]
  · refine (broadcastTo_1b_ab_apply _ _ s q).trans ?_
    rw [shapeCast_self]

/-- Putting the reduced (row) coordinate back: column `q` at row `k`. -/
theorem lift_row (q : Fin 128) (k : Fin 5000) :
    (reduces_S5000x128_S128 : S5000x128.Reduces [0] S128).lift (ix1 q) k = ix2 k q := by
  funext a
  apply Fin.ext
  match a with
  | ⟨0, _⟩ => rfl
  | ⟨1, _⟩ => rfl

/-- The block's column sums, kept as one row: entry `q` is the sum over the block's rows. -/
theorem pay4_apply (x0 x1 : Vec Ideal S5000x128 .f32) (x2 : Vec Ideal S128x128 .f32) (x3 : Vec Ideal S1x128 .f32)
    (x4 : Vec Ideal S128x128 .f32) (x5 : Vec Ideal S1x128 .f32) (u : Fin 1) (q : Fin 128) :
    k1_pay4 (F := Ideal) x0 x1 x2 x3 x4 x5 (ix2 u q)
      = ∑ s : Fin 5000, k1_pay3 (F := Ideal) x0 x1 x2 x3 x4 x5 (ix2 s q) := by
  unfold k1_pay4
  dsimp only
  refine (shapeCast_a_1a_apply _ _ u q).trans ?_
  refine (Ideal.multiReduction_add_single (k1_pay3 (F := Ideal) x0 x1 x2 x3 x4 x5) 0x00000000#32
    reduces_S5000x128_S128 (.inl rfl) rfl (ix1 q)).trans ?_
  exact Finset.sum_congr rfl fun k _ => congrArg _ (lift_row q k)

/-- The block's column sums of squares, kept as one row. -/
theorem pay5_apply (x0 x1 : Vec Ideal S5000x128 .f32) (x2 : Vec Ideal S128x128 .f32) (x3 : Vec Ideal S1x128 .f32)
    (x4 : Vec Ideal S128x128 .f32) (x5 : Vec Ideal S1x128 .f32) (u : Fin 1) (q : Fin 128) :
    k1_pay5 (F := Ideal) x0 x1 x2 x3 x4 x5 (ix2 u q)
      = ∑ s : Fin 5000, k1_pay3 (F := Ideal) x0 x1 x2 x3 x4 x5 (ix2 s q) * k1_pay3 (F := Ideal) x0 x1 x2 x3 x4 x5 (ix2 s q) := by
  unfold k1_pay5
  dsimp only
  refine (shapeCast_a_1a_apply _ _ u q).trans ?_
  refine (Ideal.multiReduction_add_single (mulf (k1_pay3 (F := Ideal) x0 x1 x2 x3 x4 x5) (k1_pay3 (F := Ideal) x0 x1 x2 x3 x4 x5)) 0x00000000#32
    reduces_S5000x128_S128 (.inl rfl) rfl (ix1 q)).trans ?_
  refine Finset.sum_congr rfl fun k _ => ?_
  refine (mulf_apply _ _ _).trans ?_
  rw [lift_row q k]

/-- The zero block the first point stores. -/
theorem pay6_apply (i : S2x128.Idx) : k1_pay6 (F := Ideal) i = 0 := by
  unfold k1_pay6
  exact Ideal.ofBits_zero_f32

/-- The first row's update: the row read back plus the block's column sums. -/
theorem pay1_apply (v25 v33 : FVec Ideal S1x128 .f32) (i : S1x128.Idx) : k1_pay1 (F := Ideal) v25 v33 i = v33 i + v25 i := rfl

/-- The second row's update: the row read back plus the block's column sums of squares. -/
theorem pay2_apply (v28 : FVec Ideal S1x128 .f32) (v36 : Vec Ideal S1x128 .f32) (i : S1x128.Idx) :
    k1_pay2 (F := Ideal) v28 v36 i = v36 i + v28 i := by
  unfold k1_pay2
  rw [shapeCast_self]
  rfl

/-- The row read back is used as it is. -/
theorem pay7_eq {F : FTy → Type} [FloatOps F] (v32 : Vec F S1x128 .f32) : k1_pay7 v32 = v32 := shapeCast_self _ _

end Cert.KernelIdeal.Region1
end
-- ==== Proof.Region1Out6.lean ====
import proofs.«149305_j21114059227218_1_alg».proof.Proof.Gen.KernelIdeal.Frame
import proofs.«149305_j21114059227218_1_alg».proof.Proof.Region1Pay
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.ValueIdx

namespace Cert.KernelIdeal.Region1

open Cert.KernelIdeal Cert.KernelIdeal.Gen

theorem hz : (![0, 0] : Fin 2 → Nat) = fun _ => 0 := funext fun a => by fin_cases a <;> rfl

section AnyF
variable {F : FTy → Type} [FloatOps F]

/-- At the first point the body leaves the stored block in window 6's buffer. -/
theorem out_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : cond1_0 i) (x0 : Vec F S5000x128 .f32) (x1 : Vec F S5000x128 .f32) (x2 : Vec F S128x128 .f32) (x3 : Vec F S1x128 .f32) (x4 : Vec F S128x128 .f32) (x5 : Vec F S1x128 .f32) :
    out1_A_6 c i arg1 harg1 arg2 harg2 arg3 harg3 arg4 harg4 arg5 harg5 arg6 harg6 arg7 harg7 arg8 harg8 hc0 x0 x1 x2 x3 x4 x5 = k1_pay3 x0 x1 x2 x3 x4 x5 := by
  unfold out1_A_6
  rw [View.read_writes_eq_canon _ _ _ (cover1_A_6 c i arg1 harg1 arg2 harg2 arg3 harg3 arg4 harg4 arg5 harg5 arg6 harg6 arg7 harg7 arg8 harg8 hc0 x0 x1 x2 x3 x4 x5)]
  unfold kernelRun1_A
  dsimp only
  sl_unfold_words
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

/-- At every later point likewise. -/
theorem out_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : ¬cond1_0 i) (x0 : Vec F S5000x128 .f32) (x1 : Vec F S5000x128 .f32) (x2 : Vec F S128x128 .f32) (x3 : Vec F S1x128 .f32) (x4 : Vec F S128x128 .f32) (x5 : Vec F S1x128 .f32) (xo7 : Vec F S2x128 .f32) :
    out1_B_6 c i arg1 harg1 arg2 harg2 arg3 harg3 arg4 harg4 arg5 harg5 arg6 harg6 arg7 harg7 arg8 harg8 hc0 x0 x1 x2 x3 x4 x5 xo7 = k1_pay3 x0 x1 x2 x3 x4 x5 := by
  unfold out1_B_6
  rw [View.read_writes_eq_canon _ _ _ (cover1_B_6 c i arg1 harg1 arg2 harg2 arg3 harg3 arg4 harg4 arg5 harg5 arg6 harg6 arg7 harg7 arg8 harg8 hc0 x0 x1 x2 x3 x4 x5 xo7)]
  unfold kernelRun1_B
  dsimp only
  sl_unfold_words
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]

end AnyF

end Cert.KernelIdeal.Region1
end
-- ==== Proof.Region1Rows.lean ====
import proofs.«149305_j21114059227218_1_alg».proof.Proof.Gen.KernelIdeal.Frame
import proofs.«149305_j21114059227218_1_alg».proof.Proof.Region1Pay
import proofs.«149305_j21114059227218_1_alg».proof.Proof.Region1Out6
import Idealize.ShloMosaic.Lib.Pipeline.Value
import Idealize.ShloMosaic.Lib.ValueIdx
import Idealize.ShloMosaic.Lib.ValueLayout

set_option maxRecDepth 16384

noncomputable section

namespace Cert.KernelIdeal.Region1Rows

open scoped BigOperators
open Idealize.ShloMosaic Idealize.ShloMosaic.TcCoe Idealize.SL.Sem
open Idealize.ShloMosaic.ValueIdx
open Idealize.ShloMosaic.Pipeline (Dat)
open Cert.KernelIdeal.Gen Cert.KernelIdeal.Region1

/-! # Region 1, the row output

Every row of the output is the two-layer perceptron of the same row of the sum of the two input arrays: a row
block of the output depends on the same row block of the inputs and on the two weight matrices and two bias rows,
which every point reads whole; the twenty row blocks tile the array. -/

section AnyF
variable {F : FTy → Type} [FloatOps F]
variable (V : (c : Dev nD) → (b : Ref sig .tc) → Buf (Elt F) ((c : Thread nD τ).loc b))

/-- What the body leaves in the row output's buffer at any point: the stored block of the six input blocks, at the
    first point and at the later ones alike. -/
theorem after6_eq (c : Dev nD) (t : Fin cfg1.N) :
    (dat1 V c).after 6 t = k1_pay3 (iblk1 V c 0 t) (iblk1 V c 1 t) (iblk1 V c 2 t) (iblk1 V c 3 t) (iblk1 V c 4 t) (iblk1 V c 5 t) := by
  rw [after1_6]
  by_cases h0 : t.val % 20 = 0
  · rw [outsAt1_A V c t h0]
    dsimp only
    exact out_A_6 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)
  · rw [outsAt1_B V c t h0]
    dsimp only
    exact out_B_6 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

end AnyF

/-- Entry `j` of row `r` of the sum of two arrays. -/
def rowSum (a0 a1 : S100000x128.Idx → EReal) (r : Fin 100000) (j : Fin 128) : EReal := a0 (ix2 r j) + a1 (ix2 r j)

/-- The perceptron applied row by row, as one function of the two arrays, the weights and the biases. -/
def mlp (a0 a1 : S100000x128.Idx → EReal) (W1 : S128x128.Idx → EReal) (b1 : S1x128.Idx → EReal)
    (W2 : S128x128.Idx → EReal) (b2 : S1x128.Idx → EReal) : S100000x128.Idx → EReal :=
  fun i => mlpRow (rowSum a0 a1 (i 0)) W1 b1 W2 b2 (i 1)

theorem mlp_apply (a0 a1 : S100000x128.Idx → EReal) (W1 : S128x128.Idx → EReal) (b1 : S1x128.Idx → EReal)
    (W2 : S128x128.Idx → EReal) (b2 : S1x128.Idx → EReal) (r : Fin 100000) (q : Fin 128) :
    mlp a0 a1 W1 b1 W2 b2 (ix2 r q) = mlpRow (rowSum a0 a1 r) W1 b1 W2 b2 q := rfl

/-- The stored block of blocks that read the two arrays on the rows where the output block lies, and the weights
    and biases whole, is the perceptron there. -/
theorem pay_eq_mlp (x0 x1 : Vec Ideal S5000x128 .f32) (x2 : Vec Ideal S128x128 .f32) (x3 : Vec Ideal S1x128 .f32)
    (x4 : Vec Ideal S128x128 .f32) (x5 : Vec Ideal S1x128 .f32)
    (a0 a1 : S100000x128.Idx → EReal) (W1 : S128x128.Idx → EReal) (b1 : S1x128.Idx → EReal)
    (W2 : S128x128.Idx → EReal) (b2 : S1x128.Idx → EReal) (i : S100000x128.Idx) (j : S5000x128.Idx)
    (hr0 : ∀ l : Fin 128, x0 (ix2 (j 0) l) = a0 (ix2 (i 0) l))
    (hr1 : ∀ l : Fin 128, x1 (ix2 (j 0) l) = a1 (ix2 (i 0) l))
    (hq : j 1 = i 1) (h2 : x2 = W1) (h3 : x3 = b1) (h4 : x4 = W2) (h5 : x5 = b2) :
    k1_pay3 (F := Ideal) x0 x1 x2 x3 x4 x5 j = mlp a0 a1 W1 b1 W2 b2 i := by
  obtain ⟨s, q, rfl⟩ : ∃ (s : Fin 5000) (q : Fin 128), j = ix2 s q := ⟨j 0, j 1, eq_ix2 j⟩
  rw [pay3_apply, h2, h3, h4, h5]
  unfold mlp
  refine congrArg₂ (fun f q => mlpRow f W1 b1 W2 b2 q) (funext fun l => ?_) hq
  exact congrArg₂ (· + ·) (hr0 l) (hr1 l)

/-- The windows' block indices over the grid: the two arrays' windows move with the row output's, which walks down
    the twenty row blocks; the weights' and biases' windows stay at block (0, 0). -/
theorem idx_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19
    ∧ win1_6.index t (1 : Fin 2) = 0 :=
  (by decide +kernel : ∀ t : Fin grid1.N, _)

/-- Every row block is some point's. -/
theorem idx_onto : ∀ (q0 : Fin 20), ∃ t : Fin cfg1.N, win1_6.index t = ![q0.val, 0] :=
  (by decide +kernel : ∀ (q0 : Fin 20), ∃ t : Fin grid1.N, win1_6.index t = ![q0.val, 0])

variable (V : (c : Dev nD) → (b : Ref sig .tc) → Buf (Elt Ideal) ((c : Thread nD τ).loc b))

/-- What point `t` writes back is block `t` of the perceptron of the arrays as the region finds them. -/
theorem flushed_eq (c : Dev nD) (t : Fin cfg1.N) :
    (dat1 V c).flushed 6 t
      = ((cfg1.win 6).blk t).view.read (Elt Ideal) (mlp (V c main_v0) (V c main_v14) (V c main_arg4) (V c main_v15) (V c main_arg6) (V c main_v16)) := by
  show (cfg1.win 6).cut (grid1.coords t) ((dat1 V c).after 6 t) = _
  rw [after6_eq V c t]
  obtain ⟨e0, e1, e2, e3, e4, e5, e6, e7, e8, e9, e10, e11, e12, e13⟩ := idx_facts t
  funext j
  refine pay_eq_mlp _ _ _ _ _ _ (V c main_v0) (V c main_v14) (V c main_arg4) (V c main_v15) (V c main_arg6) (V c main_v16)
    (((cfg1.win 6).blk t).view.emb j) j ?_ ?_ ?_ ?_ ?_ ?_ ?_
  · intro l
    show V c main_v0 (((cfg1.win 0).blk t).view.emb (ix2 (j 0) l)) = V c main_v0 (ix2 ((((cfg1.win 6).blk t).view.emb j) 0) l)
    refine congrArg _ ?_
    funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * l.val = l.val; omega
  · intro l
    show V c main_v14 (((cfg1.win 1).blk t).view.emb (ix2 (j 0) l)) = V c main_v14 (ix2 ((((cfg1.win 6).blk t).view.emb j) 0) l)
    refine congrArg _ ?_
    funext a; apply Fin.ext
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * l.val = l.val; omega
  · apply Fin.ext
    show (j 1).val = win1_6.index t (1 : Fin 2) * 128 + 1 * (j 1).val
    omega
  · funext y
    show V c main_arg4 (((cfg1.win 2).blk t).view.emb y) = V c main_arg4 y
    refine congrArg _ ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v15 (((cfg1.win 3).blk t).view.emb y) = V c main_v15 y
    refine congrArg _ ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg6 (((cfg1.win 4).blk t).view.emb y) = V c main_arg6 y
    refine congrArg _ ?_
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v16 (((cfg1.win 5).blk t).view.emb y) = V c main_v16 y
    refine congrArg _ ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v17_0).slice (win1_6.rect t)).set ↔ _
  rw [View.set_slice_whole, Rect.mem_set_unit]
  exact Iff.rfl

/-- Row `r` lies in the block of the point whose block index is `r / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The row output after the region is the perceptron of the arrays as the region finds them. -/
theorem arr_eq (c : Dev nD) :
    (dat1 V c).arrAt 6 cfg1.N = mlp (V c main_v0) (V c main_v14) (V c main_arg4) (V c main_v15) (V c main_arg6) (V c main_v16) :=
  (dat1 V c).arrAt_eq_of_cover 6 (mlp (V c main_v0) (V c main_v14) (V c main_arg4) (V c main_v15) (V c main_arg6) (V c main_v16))
    (fun t _ => flushed_eq V c t) cover

/-- The same, read at row `r` and lane `q`. -/
theorem arr_h2 (c : Dev nD) (r : Fin 100000) (q : Fin 128) :
    (dat1 V c).arrAt 6 cfg1.N (ix2 r q)
      = mlpRow (rowSum (V c main_v0) (V c main_v14) r) (V c main_arg4) (V c main_v15) (V c main_arg6) (V c main_v16) q := by
  rw [arr_eq V c]
  rfl

end Cert.KernelIdeal.Region1Rows

end
-- ==== Proof.Region2.lean ====
import proofs.«149305_j21114059227218_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region2

open Idealize.ShloMosaic Idealize.ShloMosaic.TcCoe Idealize.SL.Sem
open Idealize.ShloMosaic.ValueIdx
open Idealize.ShloMosaic.Pipeline (Dat)
open Cert.KernelIdeal.Gen

/-! # Region 2: the normalisation by lane

Every row block of the output is `(x − μ) · rsqrt(v + ε) · γ + β` of the same row block of the input, the four lane
vectors `μ`, `v`, `γ`, `β` being one row each; the twenty row blocks tile the array. -/

theorem hz2 : (![0, 0] : Fin 2 → Nat) = fun _ => 0 := funext fun a => by fin_cases a <;> rfl

/-- The normalisation, index by index, as one function of the array and the four lane vectors. -/
def normed (x : S100000x128.Idx → EReal) (mu var gam bet : S1x128.Idx → EReal) : S100000x128.Idx → EReal :=
  fun i => ((x i - mu (ix2 (0 : Fin 1) (i 1))) * Ideal.rsqrt (var (ix2 (0 : Fin 1) (i 1)) + Ideal.ofBits .f32 0x3727C5AC#32))
    * gam (ix2 (0 : Fin 1) (i 1)) + bet (ix2 (0 : Fin 1) (i 1))

/-- The body's payload at an index of the block. -/
theorem pay_apply (v0 : Vec Ideal S1x128 .f32) (v5 : Vec Ideal S5000x128 .f32) (v7 v13 v17 : Vec Ideal S1x128 .f32)
    (p : Fin 5000) (q : Fin 128) :
    k2_pay1 v0 v5 v7 v13 v17 (ix2 p q)
      = ((v5 (ix2 p q) - v7 (ix2 (0 : Fin 1) q)) * Ideal.rsqrt (v0 (ix2 (0 : Fin 1) q) + Ideal.ofBits .f32 0x3727C5AC#32))
        * v13 (ix2 (0 : Fin 1) q) + v17 (ix2 (0 : Fin 1) q) := by
  unfold k2_pay1
  rw [addf_apply, mulf_apply, mulf_apply, subf_apply]
  simp only [shapeCast_self]
  rw [broadcastTo_1b_ab_apply, broadcastTo_1b_ab_apply, broadcastTo_1b_ab_apply, broadcastTo_1b_ab_apply]
  rfl

/-- The payload of blocks that read the array where the output block lies, and the lane vectors whole, is the
    normalisation there. -/
theorem pay_eq_normed (v0 : Vec Ideal S1x128 .f32) (v5 : Vec Ideal S5000x128 .f32) (v7 v13 v17 : Vec Ideal S1x128 .f32)
    (x : S100000x128.Idx → EReal) (mu var gam bet : S1x128.Idx → EReal) (i : S100000x128.Idx) (j : S5000x128.Idx)
    (hx : v5 j = x i) (hq : j 1 = i 1) (h0 : v0 = var) (h7 : v7 = mu) (h13 : v13 = gam) (h17 : v17 = bet) :
    k2_pay1 v0 v5 v7 v13 v17 j = normed x mu var gam bet i := by
  obtain ⟨p, q, rfl⟩ : ∃ (p : Fin 5000) (q : Fin 128), j = ix2 p q := ⟨j 0, j 1, eq_ix2 j⟩
  rw [pay_apply, hx, h0, h7, h13, h17]
  unfold normed
  rw [← hq]

/-- The windows' block indices over the grid: each lane vector's window stays at block (0, 0), the input's window
    moves with the output's, which walks down the twenty row blocks. -/
theorem idx_facts : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19
    ∧ win2_5.index t (1 : Fin 2) = 0 :=
  (by decide +kernel : ∀ t : Fin grid2.N, _)

/-- Every row block is some point's. -/
theorem idx_onto : ∀ (q0 : Fin 20), ∃ t : Fin cfg2.N, win2_5.index t = ![q0.val, 0] :=
  (by decide +kernel : ∀ (q0 : Fin 20), ∃ t : Fin grid2.N, win2_5.index t = ![q0.val, 0])

variable (V : (c : Dev nD) → (b : Ref sig .tc) → Buf (Elt Ideal) ((c : Thread nD τ).loc b))

/-- What point `t` writes back is block `t` of the normalisation of the arrays as the region finds them. -/
theorem flushed_eq (c : Dev nD) (t : Fin cfg2.N) :
    (dat2 V c).flushed 5 t
      = ((cfg2.win 5).blk t).view.read (Elt Ideal)
          (normed (V c main_v17_0) (V c main_v28) (V c main_v29) (V c main_v30) (V c main_v31)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  obtain ⟨e0, e1, e2, e3, e4, e5, e6, e7, e8, e9, e10, e11⟩ := idx_facts t
  funext j
  refine pay_eq_normed _ _ _ _ _ (V c main_v17_0) (V c main_v28) (V c main_v29) (V c main_v30) (V c main_v31)
    (((cfg2.win 5).blk t).view.emb j) j ?_ ?_ ?_ ?_ ?_ ?_
  · show V c main_v17_0 (((cfg2.win 0).blk t).view.emb j) = V c main_v17_0 (((cfg2.win 5).blk t).view.emb j)
    refine congrArg _ ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · apply Fin.ext
    show (j 1).val = win2_5.index t (1 : Fin 2) * 128 + 1 * (j 1).val
    omega
  · funext y
    show V c main_v29 (((cfg2.win 2).blk t).view.emb y) = V c main_v29 y
    refine congrArg _ ?_
    funext a; apply Fin.ext
    match a with
    | ⟨0, _⟩ => show win2_2.index t (0 : Fin 2) * 1 + 1 * (y 0).val = (y 0).val; omega
    | ⟨1, _⟩ => show win2_2.index t (1 : Fin 2) * 128 + 1 * (y 1).val = (y 1).val; omega
  · funext y
    show V c main_v28 (((cfg2.win 1).blk t).view.emb y) = V c main_v28 y
    refine congrArg _ ?_
    funext a; apply Fin.ext
    match a with
    | ⟨0, _⟩ => show win2_1.index t (0 : Fin 2) * 1 + 1 * (y 0).val = (y 0).val; omega
    | ⟨1, _⟩ => show win2_1.index t (1 : Fin 2) * 128 + 1 * (y 1).val = (y 1).val; omega
  · funext y
    show V c main_v30 (((cfg2.win 3).blk t).view.emb y) = V c main_v30 y
    refine congrArg _ ?_
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v31 (((cfg2.win 4).blk t).view.emb y) = V c main_v31 y
    refine congrArg _ ?_
    funext a; apply Fin.ext
    match a with
    | ⟨0, _⟩ => show win2_4.index t (0 : Fin 2) * 1 + 1 * (y 0).val = (y 0).val; omega
    | ⟨1, _⟩ => show win2_4.index t (1 : Fin 2) * 128 + 1 * (y 1).val = (y 1).val; omega

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v32).slice (win2_5.rect t)).set ↔ _
  rw [View.set_slice_whole, Rect.mem_set_unit]
  exact Iff.rfl

/-- Row `r` lies in the block of the point whose block index is `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region is the normalisation of the arrays as the region finds them. -/
theorem arr_eq (c : Dev nD) :
    (dat2 V c).arrAt 5 cfg2.N
      = normed (V c main_v17_0) (V c main_v28) (V c main_v29) (V c main_v30) (V c main_v31) :=
  (dat2 V c).arrAt_eq_of_cover 5 (normed (V c main_v17_0) (V c main_v28) (V c main_v29) (V c main_v30) (V c main_v31))
    (fun t _ => flushed_eq V c t) cover

/-- The normalisation of one element, from the element and its lane's four numbers. -/
def normedAt (x mu var gam bet : EReal) : EReal :=
  ((x - mu) * Ideal.rsqrt (var + Ideal.ofBits .f32 0x3727C5AC#32)) * gam + bet

theorem normed_apply (x : S100000x128.Idx → EReal) (mu var gam bet : S1x128.Idx → EReal) (r : Fin 100000) (q : Fin 128) :
    normed x mu var gam bet (ix2 r q)
      = normedAt (x (ix2 r q)) (mu (ix2 (0 : Fin 1) q)) (var (ix2 (0 : Fin 1) q)) (gam (ix2 (0 : Fin 1) q)) (bet (ix2 (0 : Fin 1) q)) := rfl

/-- The same, read at row `r` and lane `q`. -/
theorem arr_normed (c : Dev nD) (r : Fin 100000) (q : Fin 128) :
    (dat2 V c).arrAt 5 cfg2.N (ix2 r q)
      = normedAt (V c main_v17_0 (ix2 r q)) (V c main_v28 (ix2 (0 : Fin 1) q)) (V c main_v29 (ix2 (0 : Fin 1) q))
          (V c main_v30 (ix2 (0 : Fin 1) q)) (V c main_v31 (ix2 (0 : Fin 1) q)) := by
  rw [arr_eq V c]
  rfl

end Cert.KernelIdeal.Region2

end
-- ==== Proof.HostK.lean ====
/-
  What the host operations between the kernel's regions compute, buffer by buffer.

  Between the first and the second region: the edge list's two rows are cut out and flattened; a negative source id is
  wrapped around by the number of nodes; the rows of the mixed features named by the source ids are taken and added
  onto the rows named by the destination ids, starting from zero (the neighbourhood sum); the two bias vectors are
  viewed as one-row matrices. Between the second and the third region: the two rows of the accumulated sums are divided
  by the number of nodes (the mean, and the mean of the squares), the variance is the second minus the square of the
  first, and mean, variance, scale and shift are viewed as one-row matrices.
-/
import proofs.«149305_j21114059227218_1_alg».proof.Proof.Gen.KernelIdeal.Launch
import Idealize.ShloMosaic.Lib.StableHlo.Run

noncomputable section

namespace Cert.KernelIdeal.HostK

open Idealize.ShloMosaic Idealize.ShloMosaic.TcCoe Idealize.SL.Sem Idealize.ShloMosaic.StableHlo Cert.KernelIdeal Cert.KernelIdeal.Gen

variable {F : FTy → Type} [FloatOps F]

/-- Row `k` of the edge list as a flat vector of ids. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source ids as a column: a negative id has the number of nodes added. -/
def srcIds (e : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow0 (F := F) e) (broadcastInDim S1600000 ![] bcast_S_S1600000 (constantI S_ 32 0#32)))
      (addi (edgeRow0 (F := F) e) (broadcastInDim S1600000 ![] bcast_S_S1600000 (constantI S_ 32 100000#32)))
      (edgeRow0 (F := F) e))

/-- The destination ids as a column. -/
def dstIds (e : (⟨S2x1600000, .i32⟩ : BufTy).Contents (Elt F)) : (⟨S1600000x1, .i32⟩ : BufTy).Contents (Elt F) :=
  broadcastInDim S1600000x1 ![0] bcast_S1600000_S1600000x1_0 (edgeRow1 (F := F) e)

/-- The all-zero table the neighbourhood sum starts from. -/
def zeroTable : (⟨S100000x128, .f32⟩ : BufTy).Contents (Elt F) :=
  broadcastInDim S100000x128 ![] bcast_S_S100000x128 (constant S_ .f32 0x00000000#32)

/-- The neighbourhood sum of a table of node rows over the edge list. -/
def neighbourSum (x : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1 (zeroTable (F := F)) (dstIds (F := F) e)
    (Host.gather gather_S100000x128_S1600000x1_S1600000x128_1_0_n_n_0_1_1128 x (srcIds (F := F) e))

/-- After the first stretch the second region's second operand is the neighbourhood sum of the first region's result. -/
theorem after1_agg (W : Valuation τ sig (Elt F)) :
    after (hostOps1 (F := F)) W (Proc.devRef .tc main_v14)
      = neighbourSum (F := F) (W (Proc.devRef .tc main_v0)) (W (Proc.devRef .tc main_arg2)) := by
  after_results
  rfl

/-- After the first stretch the first bias is the argument vector viewed as one row. -/
theorem after1_b1 (W : Valuation τ sig (Elt F)) :
    after (hostOps1 (F := F)) W (Proc.devRef .tc main_v15)
      = shapeCast S1x128 (W (Proc.devRef .tc main_arg5)) shapeCasts_S128_S1x128 := by
  after_results
  rfl

/-- After the first stretch the second bias is the argument vector viewed as one row. -/
theorem after1_b2 (W : Valuation τ sig (Elt F)) :
    after (hostOps1 (F := F)) W (Proc.devRef .tc main_v16)
      = shapeCast S1x128 (W (Proc.devRef .tc main_arg7)) shapeCasts_S128_S1x128 := by
  after_results
  rfl

/-- A row of the accumulated sums divided by the number of nodes. -/
def rowMean0 (s : (⟨S2x128, .f32⟩ : BufTy).Contents (Elt F)) : (⟨S128, .f32⟩ : BufTy).Contents (Elt F) :=
  Host.divf (shapeCast S128 (extractStridedSlice S1x128 ![0, 0] s slices_S2x128_S1x128_0_0) shapeCasts_S1x128_S128)
    (broadcastInDim S128 ![] bcast_S_S128 (constant S_ .f32 0x47C35000#32))
def rowMean1 (s : (⟨S2x128, .f32⟩ : BufTy).Contents (Elt F)) : (⟨S128, .f32⟩ : BufTy).Contents (Elt F) :=
  Host.divf (shapeCast S128 (extractStridedSlice S1x128 ![1, 0] s slices_S2x128_S1x128_1_0) shapeCasts_S1x128_S128)
    (broadcastInDim S128 ![] bcast_S_S128 (constant S_ .f32 0x47C35000#32))

/-- After the second stretch the mean is the first row of the sums over the number of nodes, as one row. -/
theorem after2_mean (W : Valuation τ sig (Elt F)) :
    after (hostOps2 (F := F)) W (Proc.devRef .tc main_v28)
      = shapeCast S1x128 (rowMean0 (F := F) (W (Proc.devRef .tc main_v17_1))) shapeCasts_S128_S1x128 := by
  after_results
  rfl

/-- After the second stretch the variance is the mean of the squares minus the square of the mean, as one row. -/
theorem after2_var (W : Valuation τ sig (Elt F)) :
    after (hostOps2 (F := F)) W (Proc.devRef .tc main_v29)
      = shapeCast S1x128 (subf (rowMean1 (F := F) (W (Proc.devRef .tc main_v17_1)))
          (mulf (rowMean0 (F := F) (W (Proc.devRef .tc main_v17_1))) (rowMean0 (F := F) (W (Proc.devRef .tc main_v17_1)))))
          shapeCasts_S128_S1x128 := by
  after_results
  rfl

/-- After the second stretch the scale is the argument vector viewed as one row. -/
theorem after2_gamma (W : Valuation τ sig (Elt F)) :
    after (hostOps2 (F := F)) W (Proc.devRef .tc main_v30)
      = shapeCast S1x128 (W (Proc.devRef .tc main_arg8)) shapeCasts_S128_S1x128 := by
  after_results
  rfl

/-- After the second stretch the shift is the argument vector viewed as one row. -/
theorem after2_beta (W : Valuation τ sig (Elt F)) :
    after (hostOps2 (F := F)) W (Proc.devRef .tc main_v31)
      = shapeCast S1x128 (W (Proc.devRef .tc main_arg9)) shapeCasts_S128_S1x128 := by
  after_results
  rfl

end Cert.KernelIdeal.HostK

end
-- ==== Proof.LibGatherRows.lean ====
/-
  Rows of a table taken by a column of integer ids, read at an index.

  `table[ids]` for a table `[N, D]` (or a flat array `[N]`) and ids given as an `[E, 1]` column lowers to a
  `stablehlo.gather` whose start index names the table's row axis, which is collapsed; a slice is one whole row
  (one element). StableHLO clamps every start index into the operand, so entry `e` of the result is the table's
  row `min (max id 0) (N − 1)`, where `id` is the id word of `e` read as a signed integer. Both shapes read
  the SAME row, `rowAt`, which is what lets a proof move a factor gathered from a flat array next to a row gathered
  from a table.
-/
import Idealize.ShloMosaic.Lib.ValueIdx

noncomputable section

namespace Cert.Lib.GatherRows

open Idealize.ShloMosaic Idealize.ShloMosaic.ValueIdx

/-- The row an id names: entry `e`'s id word read signed, negative ids taken to row 0, ids past the end to the last row. -/
def rowAt {E w : Nat} (N : Nat) (hN : 0 < N) (ids : IVec ⟨2, ![E, 1]⟩ w) (e : Fin E) : Fin N :=
  ⟨min (ids (ix2 e (0 : Fin 1))).toInt.toNat (N - 1), by omega⟩

/-- An id that is, read signed, a row number below `N` names that row. -/
theorem rowAt_of_toInt {E w N : Nat} (hN : 0 < N) (ids : IVec ⟨2, ![E, 1]⟩ w) (e : Fin E) (r : Fin N)
    (h : (ids (ix2 e (0 : Fin 1))).toInt = (r.val : Int)) : rowAt N hN ids e = r := by
  refine Fin.ext ?_
  show min (ids (ix2 e (0 : Fin 1))).toInt.toNat (N - 1) = r.val
  rw [h]
  have := r.isLt
  omega

section Rows
variable {α : Type}

/-- The dimension numbers of `table[ids]` for a table `[N, D]`, ids `[E, 1]` and a result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ENTRY (e, q) of the gathered rows: the table at the row `e`'s id names, column `q`. -/
theorem rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (ids : IVec ⟨2, ![E, 1]⟩ w) (e : Fin E) (q : Fin D) :
    Host.gather (rowsDims N D E wf) x ids (ix2 e q) = x (ix2 (rowAt N hN ids e) q) := by
  unfold Host.gather
  congr 1
  funext a
  refine Fin.ext ?_
  match a with
  | ⟨0, _⟩ =>
    show (rowsDims N D E wf).start (ix2 e q) ids 0 + (rowsDims N D E wf).batchCoord (ix2 e q) 0
      + (rowsDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e q) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e q) ids 1 + (rowsDims N D E wf).batchCoord (ix2 e q) 1
      + (rowsDims N D E wf).offCoord (ix2 e q) 1 = q.val
    have hs : (rowsDims N D E wf).start (ix2 e q) ids 1 = 0 := by
      unfold GatherDims.start
      rw [dif_neg (show (1 : Fin 2) ∉ (rowsDims N D E wf).startIndexMap from
        fun h => absurd (List.mem_singleton.mp h) (Fin.ne_of_val_ne Nat.one_ne_zero))]
    have hk : (1 : Fin 2) ∈ (rowsDims N D E wf).sKept :=
      (GatherDims.mem_sKept _ _).mpr ⟨fun h => absurd (List.mem_singleton.mp h) (Fin.ne_of_val_ne Nat.one_ne_zero), List.not_mem_nil⟩
    rw [hs, GatherDims.batchCoord_eq_zero _ _ _ List.not_mem_nil]
    simp only [Nat.zero_add, Nat.add_zero]
    unfold GatherDims.offCoord
    rw [dif_pos hk]
    rfl

/-- The same for the host operation as a program prints it, with the program's own record of these dimension numbers. -/
theorem rows_apply_host {N D E w : Nat} (hN : 0 < N)
    (wf : GatherDims.WF ⟨2, ![N, D]⟩ ⟨2, ![E, 1]⟩ ⟨2, ![E, D]⟩ [1] [0] [] [0] [] 1 ![1, D])
    (d : GatherDims ⟨2, ![N, D]⟩ ⟨2, ![E, 1]⟩ ⟨2, ![E, D]⟩) (hd : d = rowsDims N D E wf)
    (x : (⟨2, ![N, D]⟩ : Shape).Idx → α) (ids : IVec ⟨2, ![E, 1]⟩ w) (e : Fin E) (q : Fin D) :
    Host.gather d x ids (ix2 e q) = x (ix2 (rowAt N hN ids e) q) := by
  subst hd
  exact rows_apply hN wf x ids e q

end Rows

section Flat
variable {α : Type}

/-- The dimension numbers of `x[ids]` for a flat array `[N]`, ids `[E, 1]` and a result `[E]`. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ENTRY e of the gathered elements: the array at the element `e`'s id names. -/
theorem flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (ids : IVec ⟨2, ![E, 1]⟩ w) (e : Fin E) :
    Host.gather (flatDims N E wf) x ids (ix1 e) = x (ix1 (rowAt N hN ids e)) := by
  unfold Host.gather
  congr 1
  funext a
  obtain rfl : a = 0 := Subsingleton.elim _ _
  refine Fin.ext ?_
  show (flatDims N E wf).start (ix1 e) ids 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for the host operation as a program prints it. -/
theorem flat_apply_host {N E w : Nat} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = flatDims N E wf)
    (x : (⟨1, ![N]⟩ : Shape).Idx → α) (ids : IVec ⟨2, ![E, 1]⟩ w) (e : Fin E) :
    Host.gather d x ids (ix1 e) = x (ix1 (rowAt N hN ids e)) := by
  subst hd
  exact flat_apply hN wf x ids e

end Flat

end Cert.Lib.GatherRows

end
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.Moments.lean ====
/-
  The first two moments of a column of real numbers, on the extended reals.

  A column of n finite numbers h has mean  μ = (Σ h) / n.  Its variance can be written in two ways: as the mean of the
  squares minus the square of the mean,  (Σ h²) / n − μ · μ,  or as the mean of the squared deviations,
  (Σ (h − μ)²) / n.  Over the reals the two agree, because  Σ (h − μ)² = Σ h² − 2 μ Σ h + n μ²  and  Σ h = n μ.
  On the extended reals the identity needs every entry finite (at an infinite entry one side is ⊤ − ⊤ = ⊥, the other ⊤),
  so it is stated for entries that are real numbers, and proved by carrying every sum and quotient back to the reals.
-/
import Idealize.ShloMosaic.PureOps.Ideal

noncomputable section

open scoped BigOperators

namespace Cert.Moments

open Idealize.ShloMosaic

/-- A finite sum of real numbers, read on the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The two forms of the variance agree over the reals. -/
theorem var_real (n : ℕ) (hn : n ≠ 0) (h : Fin n → ℝ) :
    (∑ r, h r * h r) / n - (∑ r, h r) / n * ((∑ r, h r) / n)
      = (∑ r, (h r - (∑ r, h r) / n) * (h r - (∑ r, h r) / n)) / n := by
  have hn' : (n : ℝ) ≠ 0 := Nat.cast_ne_zero.mpr hn
  have e : ∑ r, (h r - (∑ r, h r) / n) * (h r - (∑ r, h r) / n)
      = (∑ r, h r * h r) - 2 * ((∑ r, h r) / n) * (∑ r, h r) + n * (((∑ r, h r) / n) * ((∑ r, h r) / n)) := by
    have : ∀ r, (h r - (∑ r, h r) / n) * (h r - (∑ r, h r) / n)
        = h r * h r - 2 * ((∑ r, h r) / n) * h r + ((∑ r, h r) / n) * ((∑ r, h r) / n) := fun r => by ring
    simp only [this, Finset.sum_add_distrib, Finset.sum_sub_distrib, ← Finset.mul_sum, Finset.sum_const,
      Finset.card_univ, Fintype.card_fin, nsmul_eq_mul]
    ring
  rw [e]
  field_simp
  ring

/-- The two forms of the variance agree on the extended reals when every entry is a real number: each quotient by the
    nonzero real n is a product with 1/n, every sum of reals is the real sum, and the identity over the reals remains. -/
theorem var_ereal (n : ℕ) (hn : n ≠ 0) (h : Fin n → ℝ) :
    Ideal.div (∑ r, ((h r : ℝ) : EReal) * ((h r : ℝ) : EReal)) ((n : ℝ) : EReal)
        - Ideal.div (∑ r, ((h r : ℝ) : EReal)) ((n : ℝ) : EReal) * Ideal.div (∑ r, ((h r : ℝ) : EReal)) ((n : ℝ) : EReal)
      = Ideal.div (∑ r, (((h r : ℝ) : EReal) - Ideal.div (∑ r, ((h r : ℝ) : EReal)) ((n : ℝ) : EReal))
          * (((h r : ℝ) : EReal) - Ideal.div (∑ r, ((h r : ℝ) : EReal)) ((n : ℝ) : EReal))) ((n : ℝ) : EReal) := by
  have hn' : (n : ℝ) ≠ 0 := Nat.cast_ne_zero.mpr hn
  simp only [Ideal.div_coe hn', coe_sum, ← EReal.coe_mul, ← EReal.coe_sub]
  refine congrArg (fun x : ℝ => (x : EReal)) ?_
  have := var_real n hn h
  simp only [div_eq_mul_inv] at this
  simp only [one_div]
  exact this

/-! ## Entries that are real numbers -/

/-- An extended real that is a real number (neither infinity). -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))
theorem IsReal.ite {p : Prop} [Decidable p] {x y : EReal} (hx : IsReal x) (hy : IsReal y) : IsReal (if p then x else y) := by
  split <;> assumption
/-- The logistic function of a real number is a real number. -/
theorem IsReal.logistic {x : EReal} (hx : IsReal x) : IsReal (Ideal.logistic x) := by
  obtain ⟨a, rfl⟩ := hx; exact ⟨_, Ideal.logistic_coe a⟩

end Cert.Moments

end
-- ==== Proof.Aggregate.lean ====
/-
  The neighbourhood sum of a table of node rows, read at an entry.

  Every edge e names a source row and a destination row. The rows named as sources are taken out of the table x (an id
  outside the table is moved to the nearest row), and each taken row is added onto the destination row its edge names
  (an edge whose destination is outside the table is dropped), on top of a start value z. Entry (r, q) of the result is
  therefore  z (r, q)  plus the sum, over the edges whose destination is r, of  x (source row of the edge, q).
  A sum of real numbers is a real number, so the result is finite wherever z and x are.
-/
import proofs.«149305_j21114059227218_1_alg».proof.Proof.LibGatherRows
import proofs.«149305_j21114059227218_1_alg».proof.Proof.LibSegmentSum
import proofs.«149305_j21114059227218_1_alg».proof.Proof.Moments

noncomputable section

open scoped BigOperators

namespace Cert.Aggregate

open Idealize.ShloMosaic Idealize.ShloMosaic.ValueIdx Cert.Moments Cert.Lib

/-- ENTRY (r, q) of the rows of x taken at the source ids and added onto the rows the destination ids name. -/
theorem agg_apply {N D E : ℕ} (hN : 0 < N)
    (wfG : GatherDims.WF ⟨2, ![N, D]⟩ ⟨2, ![E, 1]⟩ ⟨2, ![E, D]⟩ [1] [0] [] [0] [] 1 ![1, D])
    (G : GatherDims ⟨2, ![N, D]⟩ ⟨2, ![E, 1]⟩ ⟨2, ![E, D]⟩) (hG : G = GatherRows.rowsDims N D E wfG)
    (wfS : ScatterDims.WF ⟨2, ![N, D]⟩ ⟨2, ![E, 1]⟩ ⟨2, ![E, D]⟩ [1] [0] [0] 1)
    (S : ScatterDims ⟨2, ![N, D]⟩ ⟨2, ![E, 1]⟩ ⟨2, ![E, D]⟩) (hS : S = SegmentSum.rowsDims wfS)
    (z x : FVec Ideal ⟨2, ![N, D]⟩ .f32) (src dst : IVec ⟨2, ![E, 1]⟩ 32) (r : Fin N) (q : Fin D) :
    Host.scatterAdd S z dst (Host.gather G x src) (ix2 r q)
      = z (ix2 r q) + SegmentSum.segSum dst (fun e => x (ix2 (GatherRows.rowAt N hN src e) q)) r := by
  rw [SegmentSum.rows_apply_host wfS S hS]
  refine congrArg (z (ix2 r q) + ·) ?_
  unfold SegmentSum.segSum
  refine Finset.sum_congr rfl fun e _ => ?_
  dsimp only
  rw [GatherRows.rows_apply_host hN wfG G hG]

/-- One segment's sum of real numbers is a real number. -/
theorem segSum_isReal {E N : ℕ} (ids : IVec ⟨2, ![E, 1]⟩ 32) (f : Fin E → EReal) (hf : ∀ e, IsReal (f e)) (r : Fin N) :
    IsReal (SegmentSum.segSum ids f r) := by
  unfold SegmentSum.segSum
  exact IsReal.sum _ _ fun e _ => IsReal.ite (hf e) IsReal.zero

/-- The neighbourhood sum is finite wherever the start value and the table are. -/
theorem agg_isReal {N D E : ℕ} (hN : 0 < N)
    (wfG : GatherDims.WF ⟨2, ![N, D]⟩ ⟨2, ![E, 1]⟩ ⟨2, ![E, D]⟩ [1] [0] [] [0] [] 1 ![1, D])
    (G : GatherDims ⟨2, ![N, D]⟩ ⟨2, ![E, 1]⟩ ⟨2, ![E, D]⟩) (hG : G = GatherRows.rowsDims N D E wfG)
    (wfS : ScatterDims.WF ⟨2, ![N, D]⟩ ⟨2, ![E, 1]⟩ ⟨2, ![E, D]⟩ [1] [0] [0] 1)
    (S : ScatterDims ⟨2, ![N, D]⟩ ⟨2, ![E, 1]⟩ ⟨2, ![E, D]⟩) (hS : S = SegmentSum.rowsDims wfS)
    (z x : FVec Ideal ⟨2, ![N, D]⟩ .f32) (src dst : IVec ⟨2, ![E, 1]⟩ 32)
    (hz : ∀ r q, IsReal (z (ix2 r q))) (hx : ∀ r q, IsReal (x (ix2 r q))) (r : Fin N) (q : Fin D) :
    IsReal (Host.scatterAdd S z dst (Host.gather G x src) (ix2 r q)) := by
  rw [agg_apply hN wfG G hG wfS S hS]
  exact (hz r q).add (segSum_isReal dst _ (fun e => hx _ q) r)

end Cert.Aggregate

end
-- ==== Proof.Consts.lean ====
/-
  The float literals the two programs spell, as the extended reals their bit patterns denote, and the logistic
  function written out: 1 / (1 + e^(-w)).
-/
import Idealize.ShloMosaic.PureOps.Ideal

noncomputable section

namespace Cert.Consts

open Idealize.ShloMosaic

/-- The pattern of 1.0 denotes 1. -/
theorem ofBits_one : Ideal.ofBits .f32 0x3F800000#32 = 1 := by
  simp [Ideal.ofBits, Ideal.ieee, -EReal.coe_mul]; norm_num

/-- The pattern of 100000.0 denotes the number of rows, 100000, as a real number. -/
theorem ofBits_rows : Ideal.ofBits .f32 0x47C35000#32 = (((100000 : ℕ) : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The quotient 1 / (1 + e^(-w)) with both ones spelt as float literals is the logistic function. -/
theorem logistic_spelt (w : EReal) :
    Ideal.div (Ideal.ofBits .f32 0x3F800000#32) (Ideal.ofBits .f32 0x3F800000#32 + Ideal.exp (-w)) = Ideal.logistic w := by
  rw [ofBits_one]; rfl

/-- The integer zero converted to a float is 0. -/
theorem sitofp_zero : (((0#32 : BitVec 32).toInt : ℝ) : EReal) = 0 := by
  simp

end Cert.Consts

end
-- ==== Proof.HostKVal.lean ====
/-
  The host operations between the kernel's regions, read entry by entry on the extended reals.

  The mean of column q is the first row of the accumulated sums at q divided by the number of rows; the variance is the
  second row at q divided by the number of rows, minus the square of the mean; a vector viewed as a one-row matrix reads
  the vector; and the neighbourhood sum of a table whose entries are real numbers has real entries.
-/
import proofs.«149305_j21114059227218_1_alg».proof.Proof.HostK
import proofs.«149305_j21114059227218_1_alg».proof.Proof.Aggregate
import proofs.«149305_j21114059227218_1_alg».proof.Proof.Consts
import Idealize.ShloMosaic.Lib.ValueIdx
import Idealize.ShloMosaic.Lib.ValueLayout
import Idealize.ShloMosaic.Lib.IdealHost

noncomputable section

open scoped BigOperators

namespace Cert.KernelIdeal.HostK

open Idealize.ShloMosaic Idealize.ShloMosaic.ValueIdx Cert.KernelIdeal Cert.KernelIdeal.Gen Cert.Moments

/-- A vector viewed as a one-row matrix reads, at column q, the vector at q. -/
theorem oneRow_apply (v : FVec Ideal S128 .f32) (q : Fin 128) :
    shapeCast S1x128 v shapeCasts_S128_S1x128 (ix2 (0 : Fin 1) q) = v (ix1 q) :=
  shapeCast_a_1a_apply v _ 0 q

/-- The first row of the sums over the number of rows, at column q. -/
theorem rowMean0_apply (s : FVec Ideal S2x128 .f32) (q : Fin 128) :
    rowMean0 (F := Ideal) s (ix1 q) = Ideal.div (s (ix2 (0 : Fin 2) q)) (Ideal.ofBits .f32 0x47C35000#32) := by
  unfold rowMean0
  show Ideal.div (shapeCast S128 (extractStridedSlice S1x128 ![0, 0] s slices_S2x128_S1x128_0_0) shapeCasts_S1x128_S128 (ix1 q))
      (broadcastInDim S128 ![] bcast_S_S128 (constant (F := Ideal) S_ .f32 0x47C35000#32) (ix1 q)) = _
  rw [shapeCast_1a_a_apply, slice2_axis0_apply 0 s _ (0 : Fin 1) q (0 : Fin 2) rfl, broadcastInDim_scalar_apply]
  rfl

/-- The second row of the sums over the number of rows, at column q. -/
theorem rowMean1_apply (s : FVec Ideal S2x128 .f32) (q : Fin 128) :
    rowMean1 (F := Ideal) s (ix1 q) = Ideal.div (s (ix2 (1 : Fin 2) q)) (Ideal.ofBits .f32 0x47C35000#32) := by
  unfold rowMean1
  show Ideal.div (shapeCast S128 (extractStridedSlice S1x128 ![1, 0] s slices_S2x128_S1x128_1_0) shapeCasts_S1x128_S128 (ix1 q))
      (broadcastInDim S128 ![] bcast_S_S128 (constant (F := Ideal) S_ .f32 0x47C35000#32) (ix1 q)) = _
  rw [shapeCast_1a_a_apply, slice2_axis0_apply 1 s _ (0 : Fin 1) q (1 : Fin 2) rfl, broadcastInDim_scalar_apply]
  rfl

/-- The mean row at column q. -/
theorem mean_apply (s : FVec Ideal S2x128 .f32) (q : Fin 128) :
    shapeCast S1x128 (rowMean0 (F := Ideal) s) shapeCasts_S128_S1x128 (ix2 (0 : Fin 1) q)
      = Ideal.div (s (ix2 (0 : Fin 2) q)) (Ideal.ofBits .f32 0x47C35000#32) :=
  (oneRow_apply _ q).trans (rowMean0_apply s q)

/-- The variance row at column q: the mean of the squares minus the square of the mean. -/
theorem var_apply (s : FVec Ideal S2x128 .f32) (q : Fin 128) :
    shapeCast S1x128 (subf (rowMean1 (F := Ideal) s : FVec Ideal S128 .f32)
          (mulf (rowMean0 (F := Ideal) s : FVec Ideal S128 .f32) (rowMean0 (F := Ideal) s : FVec Ideal S128 .f32)) : FVec Ideal S128 .f32)
        shapeCasts_S128_S1x128 (ix2 (0 : Fin 1) q)
      = Ideal.div (s (ix2 (1 : Fin 2) q)) (Ideal.ofBits .f32 0x47C35000#32)
        - Ideal.div (s (ix2 (0 : Fin 2) q)) (Ideal.ofBits .f32 0x47C35000#32)
          * Ideal.div (s (ix2 (0 : Fin 2) q)) (Ideal.ofBits .f32 0x47C35000#32) := by
  refine (oneRow_apply _ q).trans ?_
  rw [subf_apply, mulf_apply, rowMean1_apply, rowMean0_apply]

/-- The zero table is zero at every entry. -/
theorem zeroTable_apply (j : S100000x128.Idx) : zeroTable (F := Ideal) j = 0 := by
  unfold zeroTable
  rw [broadcastInDim_scalar_apply]
  exact Cert.Consts.ofBits_zero

/-- The neighbourhood sum of a table of real numbers has real entries. -/
theorem neighbourSum_isReal (x : FVec Ideal S100000x128 .f32) (e : IVec S2x1600000 32)
    (hx : ∀ r q, IsReal (x (ix2 r q))) (r : Fin 100000) (q : Fin 128) :
    IsReal (neighbourSum (F := Ideal) x e (ix2 r q)) := by
  unfold neighbourSum
  exact Cert.Aggregate.agg_isReal (N := 100000) (D := 128) (E := 1600000) (by norm_num)
    gather_S100000x128_S1600000x1_S1600000x128_1_0_n_n_0_1_1128_wf _ rfl
    scatter_S100000x128_S1600000x1_S1600000x128_1_0_0_1_wf _ rfl
    (zeroTable (F := Ideal)) x (srcIds (F := Ideal) e) (dstIds (F := Ideal) e)
    (fun r q => by rw [zeroTable_apply]; exact IsReal.zero) hx r q

end Cert.KernelIdeal.HostK

end
-- ==== Proof.StageReal.lean ====
/-
  Finiteness of two stages of the computation, and of a vector viewed as a row.

  The real numbers are closed under sums, products, maxima and the logistic function, so a value built from real entries
  by those operations alone is a real number. This holds of an entry of the two-layer perceptron of a row (two matrix
  products, two added rows, one clip below at zero) and of an entry of the gated mix σ(g₀) · a + σ(g₁) · b.
-/
import proofs.«149305_j21114059227218_1_alg».proof.Proof.Moments
import proofs.«149305_j21114059227218_1_alg».proof.Proof.Region1Pay
import proofs.«149305_j21114059227218_1_alg».proof.Proof.Region0
import Idealize.ShloMosaic.Lib.ValueLayout

noncomputable section

open scoped BigOperators
open Idealize.ShloMosaic Idealize.ShloMosaic.ValueIdx

namespace Cert.StageReal

open Cert.Moments Cert.KernelIdeal

/-- An entry of the perceptron's output row is a real number when the input row, both matrices and both added rows
    have real entries: it is a sum of products of real numbers, plus a real number. -/
theorem mlpRow_isReal {xa : Fin 128 → EReal} {W1 : (⟨2, ![128, 128]⟩ : Shape).Idx → EReal}
    {b1 : (⟨2, ![1, 128]⟩ : Shape).Idx → EReal} {W2 : (⟨2, ![128, 128]⟩ : Shape).Idx → EReal}
    {b2 : (⟨2, ![1, 128]⟩ : Shape).Idx → EReal}
    (hxa : ∀ j, IsReal (xa j)) (hW1 : ∀ i, IsReal (W1 i)) (hb1 : ∀ i, IsReal (b1 i)) (hW2 : ∀ i, IsReal (W2 i))
    (hb2 : ∀ i, IsReal (b2 i)) (q : Fin 128) : IsReal (Region1.mlpRow xa W1 b1 W2 b2 q) := by
  unfold Region1.mlpRow
  exact IsReal.add
    (IsReal.sum _ _ fun k _ =>
      IsReal.mul
        (IsReal.max (IsReal.add (IsReal.sum _ _ fun j _ => IsReal.mul (hxa j) (hW1 _)) (hb1 _)) IsReal.zero)
        (hW2 _))
    (hb2 _)

/-- An entry of the gated mix is a real number when the gates and both arrays have real entries. -/
theorem mixed_isReal {g : Cert.KernelIdeal.S2.Idx → EReal} {a b : Cert.KernelIdeal.S100000x128.Idx → EReal}
    (hg : ∀ i, IsReal (g i)) (ha : ∀ i, IsReal (a i)) (hb : ∀ i, IsReal (b i)) (i : Cert.KernelIdeal.S100000x128.Idx) :
    IsReal (Region0.mixed g a b i) := by
  unfold Region0.mixed
  exact IsReal.add (IsReal.mul (IsReal.logistic (hg _)) (ha i)) (IsReal.mul (IsReal.logistic (hg _)) (hb i))

/-- A vector of 128 real numbers viewed as one row of 128 has real entries: entry (u, i) of the row is entry i of
    the vector. -/
theorem row_isReal (v : (⟨1, ![128]⟩ : Shape).Idx → EReal) (h : (⟨1, ![128]⟩ : Shape).ShapeCasts ⟨2, ![1, 128]⟩)
    (hv : ∀ j, IsReal (v j)) : ∀ i, IsReal (shapeCast ⟨2, ![1, 128]⟩ v h i) := by
  intro i
  obtain ⟨u, k, rfl⟩ : ∃ (u : Fin 1) (k : Fin 128), i = ix2 u k := ⟨_, _, eq_ix2 i⟩
  rw [shapeCast_a_1a_apply]
  exact hv _

end Cert.StageReal

end
-- ==== Proof.PreReal.lean ====
/-
  The precondition read back: every float input is a real number.

  The precondition evaluates, for each of the nine float arrays x, the conjunction over all entries of the test
  |x j| < +∞, and then the conjunction of the nine results; it is stated to be true. A conjunction that is true has
  every conjunct true, so each entry of each array passes the test. On the extended reals |x| = max x (−x), which is
  +∞ exactly at the two infinities; hence an entry that passes the strict test is neither infinity: it is a real number.
-/
import proofs.«149305_j21114059227218_1_alg».proof.Pre_finite_inputs
import proofs.«149305_j21114059227218_1_alg».proof.Proof.Moments
import Idealize.ShloMosaic.Lib.ReduceAll
import Idealize.ShloMosaic.Lib.ValueIdx

noncomputable section

namespace Cert.PreReal

open Idealize.ShloMosaic Cert.Moments Cert.Pre_finite_inputs

/-- A rank-0 array has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (−x) is strictly below +∞ is a real number: at ⊥ and at ⊤ the
    absolute value is ⊤, which is not below itself. -/
theorem isReal_of_abs_lt_inf (x : EReal)
    (h : Ideal.cmp .olt (max x (-x)) (Ideal.ofBits .f32 0x7F800000#32) = 1#1) : IsReal x := by
  rw [inf_eq_top] at h
  unfold Ideal.cmp at h
  induction x using EReal.rec with
  | bot => simp at h
  | coe r => exact ⟨r, rfl⟩
  | top => simp at h

/-- An array all of whose entries pass the test |x j| < +∞ (the conjunction over all entries is true) has every entry
    a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ j, IsReal (x j) := fun j =>
  isReal_of_abs_lt_inf (x j) (Host.reduce_andi_all _ _ hr hu ValueIdx.ix0 e j)

variable [Facts]

/-- THE PRECONDITION DECODED: when it is all ones, every entry of every float input is a real number. -/
theorem real_of_pre (a0 a1 : FVec Ideal S100000x128 .f32) (a2 : IVec S2x1600000 32) (a3 : FVec Ideal S2 .f32)
    (a4 : FVec Ideal S128x128 .f32) (a5 : FVec Ideal S128 .f32) (a6 : FVec Ideal S128x128 .f32)
    (a7 a8 a9 : FVec Ideal S128 .f32)
    (h : Cert.Pre_finite_inputs.fn (F := Ideal) a0 a1 a2 a3 a4 a5 a6 a7 a8 a9 = (fun _ => 1#1)) :
    (∀ j, IsReal (a0 j)) ∧ (∀ j, IsReal (a1 j)) ∧ (∀ j, IsReal (a3 j)) ∧ (∀ j, IsReal (a4 j)) ∧ (∀ j, IsReal (a5 j))
      ∧ (∀ j, IsReal (a6 j)) ∧ (∀ j, IsReal (a7 j)) ∧ (∀ j, IsReal (a8 j)) ∧ (∀ j, IsReal (a9 j)) := by
  have e := congrFun h ValueIdx.ix0
  dsimp only [fn, fn_part1, fn_part2] at e
  simp only [andi, IntOp.andi_eq_one] at e
  obtain ⟨⟨⟨⟨⟨⟨⟨⟨h0, h1⟩, h3⟩, h4⟩, h5⟩, h6⟩, h7⟩, h8⟩, h9⟩ := e
  exact ⟨all_real a0 _ _ _ h0, all_real a1 _ _ _ h1, all_real a3 _ _ _ h3, all_real a4 _ _ _ h4,
    all_real a5 _ _ _ h5, all_real a6 _ _ _ h6, all_real a7 _ _ _ h7, all_real a8 _ _ _ h8, all_real a9 _ _ _ h9⟩

end Cert.PreReal

end
-- ==== Proof.Hidden.lean ====
/-
  The hidden layer, entry by entry, and its finiteness.

  Entry (r, q) of the hidden layer is the two-layer perceptron of row r of  h + A h,  where  h = σ(g₀) · a + σ(g₁) · b
  is the gated mix of the two inputs and  A h  its neighbourhood sum over the edge list; the two bias vectors enter as
  one-row matrices. When every input entry is a real number so is every entry of the hidden layer: the mix, the
  neighbourhood sum of a real table, and the perceptron are built from sums, products, maxima and the logistic function.
-/
import proofs.«149305_j21114059227218_1_alg».proof.Proof.Region0
import proofs.«149305_j21114059227218_1_alg».proof.Proof.Region1Pay
import proofs.«149305_j21114059227218_1_alg».proof.Proof.StageReal
import proofs.«149305_j21114059227218_1_alg».proof.Proof.PreReal
import proofs.«149305_j21114059227218_1_alg».proof.Proof.Moments
import proofs.«149305_j21114059227218_1_alg».proof.Proof.HostKVal

noncomputable section

open scoped BigOperators
open Idealize.ShloMosaic Idealize.ShloMosaic.ValueIdx

namespace Cert.Hidden

open Cert.KernelIdeal Cert.KernelIdeal.Gen Cert.Moments

/-- Entry (r, q) of the hidden layer as a function of the eight inputs it reads: the perceptron of row r of the mix
    plus its neighbourhood sum. -/
def hid (a0 a1 : FVec Ideal S100000x128 .f32) (a2 : IVec S2x1600000 32) (a3 : FVec Ideal S2 .f32)
    (a4 : FVec Ideal S128x128 .f32) (a5 : FVec Ideal S128 .f32) (a6 : FVec Ideal S128x128 .f32)
    (a7 : FVec Ideal S128 .f32) (r : Fin 100000) (q : Fin 128) : EReal :=
  Region1.mlpRow
    (fun j => Region0.mixed a3 a0 a1 (ix2 r j) + HostK.neighbourSum (F := Ideal) (Region0.mixed a3 a0 a1) a2 (ix2 r j))
    a4 (shapeCast S1x128 a5 shapeCasts_S128_S1x128) a6 (shapeCast S1x128 a7 shapeCasts_S128_S1x128) q

/-- Every entry of the hidden layer is a real number when every entry of the seven float inputs it reads is. -/
theorem hid_isReal (a0 a1 : FVec Ideal S100000x128 .f32) (a2 : IVec S2x1600000 32) (a3 : FVec Ideal S2 .f32)
    (a4 : FVec Ideal S128x128 .f32) (a5 : FVec Ideal S128 .f32) (a6 : FVec Ideal S128x128 .f32)
    (a7 : FVec Ideal S128 .f32)
    (h0 : ∀ j, IsReal (a0 j)) (h1 : ∀ j, IsReal (a1 j)) (h3 : ∀ j, IsReal (a3 j)) (h4 : ∀ j, IsReal (a4 j))
    (h5 : ∀ j, IsReal (a5 j)) (h6 : ∀ j, IsReal (a6 j)) (h7 : ∀ j, IsReal (a7 j)) (r : Fin 100000) (q : Fin 128) :
    IsReal (hid a0 a1 a2 a3 a4 a5 a6 a7 r q) := by
  have hm : ∀ i, IsReal (Region0.mixed a3 a0 a1 i) := fun i => Cert.StageReal.mixed_isReal h3 h0 h1 i
  unfold hid
  exact Cert.StageReal.mlpRow_isReal
    (fun j => IsReal.add (hm _) (HostK.neighbourSum_isReal (Region0.mixed a3 a0 a1) a2 (fun r q => hm _) r j))
    h4 (Cert.StageReal.row_isReal a5 _ h5) h6 (Cert.StageReal.row_isReal a7 _ h7) q

end Cert.Hidden

end
-- ==== Proof.Region1Blk.lean ====
import proofs.«149305_j21114059227218_1_alg».proof.Proof.Gen.KernelIdeal.Frame
import proofs.«149305_j21114059227218_1_alg».proof.Proof.Region1Pay

noncomputable section

open scoped BigOperators
open Idealize.ShloMosaic Idealize.ShloMosaic.TcCoe Idealize.SL.Sem
open Idealize.ShloMosaic.ValueIdx

namespace Cert.KernelIdeal.Region1

open Cert.KernelIdeal Cert.KernelIdeal.Gen

/-- The value the region computes at row `r`, column `q`: the two-layer perceptron of row `r` of `h + a`. -/
def hidden (h a : (⟨2, ![100000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin 100000) (q : Fin 128) : EReal :=
  (∑ k : Fin 128, max ((∑ j : Fin 128, (h (ix2 r j) + a (ix2 r j)) * W1 (ix2 j k)) + b1 (ix2 (0 : Fin 1) k)) 0 * W2 (ix2 k q))
    + b2 (ix2 (0 : Fin 1) q)

theorem hidden_eq_mlpRow (h a : (⟨2, ![100000, 128]⟩ : Shape).Idx → EReal) (W1 : (⟨2, ![128, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin 100000) (q : Fin 128) :
    hidden h a W1 b1 W2 b2 r q = mlpRow (fun j => h (ix2 r j) + a (ix2 r j)) W1 b1 W2 b2 q := rfl

variable (V : (c : Dev nD) → (b : Ref sig .tc) → Buf (Elt Ideal) ((c : Thread nD τ).loc b))

/-- The region's value at (r, q), of the arrays as the region finds them. -/
def H (c : Dev nD) (r : Fin 100000) (q : Fin 128) : EReal :=
  hidden (V c main_v0) (V c main_v14) (V c main_arg4) (V c main_v15) (V c main_arg6) (V c main_v16) r q

/-- The row windows' block index is the point's number on the row axis and zero on the column axis. -/
theorem idx_facts_rows : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The weights' and biases' windows stay at block (0, 0). -/
theorem idx_facts_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Window 0's block at point `t` is rows `5000 t … 5000 t + 4999` of its array. -/
theorem blk0_apply (c : Dev nD) (t : Fin cfg1.N) (s : Fin 5000) (j : Fin 128) (hr : 5000 * t.val + s.val < 100000) :
    (iblk1 V c 0 t : Vec Ideal S5000x128 .f32) (ix2 s j) = V c main_v0 (ix2 (⟨5000 * t.val + s.val, hr⟩ : Fin 100000) j) := by
  unfold iblk1
  rw [View.read_apply]
  show V c main_v0 _ = V c main_v0 _
  refine congrArg (V c main_v0) ?_
  funext a
  apply Fin.ext
  match a with
  | ⟨0, _⟩ => show win1_0.index t (0 : Fin 2) * 5000 + 1 * s.val = 5000 * t.val + s.val; rw [(idx_facts_rows t).1]; omega
  | ⟨1, _⟩ => show win1_0.index t (1 : Fin 2) * 128 + 1 * j.val = j.val; rw [(idx_facts_rows t).2.1]; omega

/-- Window 1's block at point `t` is rows `5000 t … 5000 t + 4999` of its array. -/
theorem blk1_apply (c : Dev nD) (t : Fin cfg1.N) (s : Fin 5000) (j : Fin 128) (hr : 5000 * t.val + s.val < 100000) :
    (iblk1 V c 1 t : Vec Ideal S5000x128 .f32) (ix2 s j) = V c main_v14 (ix2 (⟨5000 * t.val + s.val, hr⟩ : Fin 100000) j) := by
  unfold iblk1
  rw [View.read_apply]
  show V c main_v14 _ = V c main_v14 _
  refine congrArg (V c main_v14) ?_
  funext a
  apply Fin.ext
  match a with
  | ⟨0, _⟩ => show win1_1.index t (0 : Fin 2) * 5000 + 1 * s.val = 5000 * t.val + s.val; rw [(idx_facts_rows t).2.2.1]; omega
  | ⟨1, _⟩ => show win1_1.index t (1 : Fin 2) * 128 + 1 * j.val = j.val; rw [(idx_facts_rows t).2.2.2]; omega

/-- Window 2's block is its whole array at every point. -/
theorem blk2_eq (c : Dev nD) (t : Fin cfg1.N) : (iblk1 V c 2 t : Vec Ideal S128x128 .f32) = V c main_arg4 := by
  funext y
  unfold iblk1
  rw [View.read_apply]
  show V c main_arg4 _ = V c main_arg4 y
  refine congrArg (V c main_arg4) ?_
  funext a
  apply Fin.ext
  match a with
  | ⟨0, _⟩ => show win1_2.index t (0 : Fin 2) * 128 + 1 * (y 0).val = (y 0).val; rw [(idx_facts_whole t).1]; omega
  | ⟨1, _⟩ => show win1_2.index t (1 : Fin 2) * 128 + 1 * (y 1).val = (y 1).val; rw [(idx_facts_whole t).2.1]; omega

/-- Window 3's block is its whole array at every point. -/
theorem blk3_eq (c : Dev nD) (t : Fin cfg1.N) : (iblk1 V c 3 t : Vec Ideal S1x128 .f32) = V c main_v15 := by
  funext y
  unfold iblk1
  rw [View.read_apply]
  show V c main_v15 _ = V c main_v15 y
  refine congrArg (V c main_v15) ?_
  funext a
  apply Fin.ext
  match a with
  | ⟨0, _⟩ => show win1_3.index t (0 : Fin 2) * 1 + 1 * (y 0).val = (y 0).val; rw [(idx_facts_whole t).2.2.1]; omega
  | ⟨1, _⟩ => show win1_3.index t (1 : Fin 2) * 128 + 1 * (y 1).val = (y 1).val; rw [(idx_facts_whole t).2.2.2.1]; omega

/-- Window 4's block is its whole array at every point. -/
theorem blk4_eq (c : Dev nD) (t : Fin cfg1.N) : (iblk1 V c 4 t : Vec Ideal S128x128 .f32) = V c main_arg6 := by
  funext y
  unfold iblk1
  rw [View.read_apply]
  show V c main_arg6 _ = V c main_arg6 y
  refine congrArg (V c main_arg6) ?_
  funext a
  apply Fin.ext
  match a with
  | ⟨0, _⟩ => show win1_4.index t (0 : Fin 2) * 128 + 1 * (y 0).val = (y 0).val; rw [(idx_facts_whole t).2.2.2.2.1]; omega
  | ⟨1, _⟩ => show win1_4.index t (1 : Fin 2) * 128 + 1 * (y 1).val = (y 1).val; rw [(idx_facts_whole t).2.2.2.2.2.1]; omega

/-- Window 5's block is its whole array at every point. -/
theorem blk5_eq (c : Dev nD) (t : Fin cfg1.N) : (iblk1 V c 5 t : Vec Ideal S1x128 .f32) = V c main_v16 := by
  funext y
  unfold iblk1
  rw [View.read_apply]
  show V c main_v16 _ = V c main_v16 y
  refine congrArg (V c main_v16) ?_
  funext a
  apply Fin.ext
  match a with
  | ⟨0, _⟩ => show win1_5.index t (0 : Fin 2) * 1 + 1 * (y 0).val = (y 0).val; rw [(idx_facts_whole t).2.2.2.2.2.2.1]; omega
  | ⟨1, _⟩ => show win1_5.index t (1 : Fin 2) * 128 + 1 * (y 1).val = (y 1).val; rw [(idx_facts_whole t).2.2.2.2.2.2.2]; omega

/-- The block point `t` stores, at (s, q), is the region's value at row `5000 t + s`. -/
theorem pay3_blocks (c : Dev nD) (t : Fin cfg1.N) (s : Fin 5000) (q : Fin 128) (hr : 5000 * t.val + s.val < 100000) :
    k1_pay3 (F := Ideal) (iblk1 V c 0 t) (iblk1 V c 1 t) (iblk1 V c 2 t) (iblk1 V c 3 t) (iblk1 V c 4 t) (iblk1 V c 5 t) (ix2 s q) = H V c ⟨5000 * t.val + s.val, hr⟩ q := by
  refine (pay3_apply (iblk1 V c 0 t) (iblk1 V c 1 t) (iblk1 V c 2 t) (iblk1 V c 3 t) (iblk1 V c 4 t) (iblk1 V c 5 t) s q).trans ?_
  unfold H
  rw [hidden_eq_mlpRow, blk2_eq V c t, blk3_eq V c t, blk4_eq V c t, blk5_eq V c t]
  refine congrArg (fun xa => mlpRow xa (V c main_arg4) (V c main_v15) (V c main_arg6) (V c main_v16) q) (funext fun j => ?_)
  rw [blk0_apply V c t s j hr, blk1_apply V c t s j hr]

end Cert.KernelIdeal.Region1
end
-- ==== Proof.Region1Out7.lean ====
import proofs.«149305_j21114059227218_1_alg».proof.Proof.Gen.KernelIdeal.Frame
import proofs.«149305_j21114059227218_1_alg».proof.Proof.Region1Pay
import proofs.«149305_j21114059227218_1_alg».proof.Proof.Region1Out6
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.ValueIdx

namespace Cert.KernelIdeal.Region1

open Cert.KernelIdeal Cert.KernelIdeal.Gen

/-- Under the last store, at an index named by its place inside the store's rectangle, the contents are the payload there. -/
theorem canon_cons_at {Val : EltTy → Type} [∀ e, Nonempty (Val e)] {S : Shape} {e : EltTy} (r : Rect S) (w : r.shape.Idx → Val e)
    (L : List (View.Piece Val S e)) (y : S.Idx) (x : r.shape.Idx) (h : r.emb x = y) : View.canon (⟨r, w⟩ :: L) y = w x := by
  subst h; exact View.canon_cons_emb r w L x

/-- Row 0 of the accumulator lies outside the second row's store. -/
theorem row0_not_mem (q : Fin 128) (inb) : ix2 (0 : Fin 2) q ∉ (Rect.unit (s := S2x128) ![1, 0] ![1, 128] inb).set := by
  rw [Rect.mem_set_unit]
  intro h
  have h0 : (1 : ℕ) ≤ 0 := (h 0).1
  omega

/-- Row 1 of the accumulator lies outside the first row's store. -/
theorem row1_not_mem (q : Fin 128) (inb) : ix2 (1 : Fin 2) q ∉ (Rect.unit (s := S2x128) ![0, 0] ![1, 128] inb).set := by
  rw [Rect.mem_set_unit]
  intro h
  have h0 : (1 : ℕ) < 0 + 1 := (h 0).2
  omega

/-- Off the last store, the contents are the earlier stores'. -/
theorem canon_cons_skip {Val : EltTy → Type} [∀ e, Nonempty (Val e)] {S : Shape} {e : EltTy} (r : Rect S) (w : r.shape.Idx → Val e)
    (L : List (View.Piece Val S e)) (y : S.Idx) (h : y ∉ r.set) : View.canon (⟨r, w⟩ :: L) y = View.canon L y :=
  View.canon_cons_of_not_mem ⟨r, w⟩ L h

/-- Row 0 of the accumulator is row 0 of the first row's store. -/
theorem row0_emb (q : Fin 128) (inb) : (Rect.unit (s := S2x128) ![0, 0] ![1, 128] inb).emb (ix2 (0 : Fin 1) q) = ix2 (0 : Fin 2) q := by
  funext a
  apply Fin.ext
  match a with
  | ⟨0, _⟩ => rfl
  | ⟨1, _⟩ => show 0 + 1 * q.val = q.val; omega

/-- Row 1 of the accumulator is row 0 of the second row's store. -/
theorem row1_emb (q : Fin 128) (inb) : (Rect.unit (s := S2x128) ![1, 0] ![1, 128] inb).emb (ix2 (0 : Fin 1) q) = ix2 (1 : Fin 2) q := by
  funext a
  apply Fin.ext
  match a with
  | ⟨0, _⟩ => rfl
  | ⟨1, _⟩ => show 0 + 1 * q.val = q.val; omega

/-- A later point adds the block's column sums to the first row of the accumulator it finds. -/
theorem out_B_7_row0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : ¬cond1_0 i) (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32) (xo7 : Vec Ideal S2x128 .f32) (q : Fin 128) :
    out1_B_7 (F := Ideal) c i arg1 harg1 arg2 harg2 arg3 harg3 arg4 harg4 arg5 harg5 arg6 harg6 arg7 harg7 arg8 harg8 hc0 x0 x1 x2 x3 x4 x5 xo7 (ix2 (0 : Fin 2) q)
      = xo7 (ix2 (0 : Fin 2) q) + ∑ s : Fin 5000, k1_pay3 (F := Ideal) x0 x1 x2 x3 x4 x5 (ix2 s q) := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 xo7)]
  unfold kernelRun1_B
  dsimp only
  sl_unfold_words
  simp only [View.readAt_eq_ld, harg1.read_unread, harg2.read_unread, harg3.read_unread, harg4.read_unread, harg5.read_unread, harg6.read_unread, harg8.read_unread, View.ld_unit_zero (S := S5000x128) hz, View.ld_unit_zero (S := S128x128) hz, View.ld_unit_zero (S := S1x128) hz]
  refine (canon_cons_skip _ _ _ _ ?_).trans ?_
  · exact row0_not_mem q _
  refine (canon_cons_at _ _ _ _ (ix2 (0 : Fin 1) q) (row0_emb q _)).trans ?_
  refine (pay1_apply _ _ _).trans ?_
  refine congrArg₂ (· + ·) ?_ (pay4_apply x0 x1 x2 x3 x4 x5 0 q)
  rw [pay7_eq]
  exact congrArg xo7 (row0_emb q _)

/-- and the block's column sums of squares to the second row. -/
theorem out_B_7_row1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : ¬cond1_0 i) (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32) (xo7 : Vec Ideal S2x128 .f32) (q : Fin 128) :
    out1_B_7 (F := Ideal) c i arg1 harg1 arg2 harg2 arg3 harg3 arg4 harg4 arg5 harg5 arg6 harg6 arg7 harg7 arg8 harg8 hc0 x0 x1 x2 x3 x4 x5 xo7 (ix2 (1 : Fin 2) q)
      = xo7 (ix2 (1 : Fin 2) q) + ∑ s : Fin 5000, k1_pay3 (F := Ideal) x0 x1 x2 x3 x4 x5 (ix2 s q) * k1_pay3 (F := Ideal) x0 x1 x2 x3 x4 x5 (ix2 s q) := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 x5 xo7)]
  unfold kernelRun1_B
  dsimp only
  sl_unfold_words
  simp only [View.readAt_eq_ld, harg1.read_unread, harg2.read_unread, harg3.read_unread, harg4.read_unread, harg5.read_unread, harg6.read_unread, harg8.read_unread, View.ld_unit_zero (S := S5000x128) hz, View.ld_unit_zero (S := S128x128) hz, View.ld_unit_zero (S := S1x128) hz]
  refine (canon_cons_at _ _ _ _ (ix2 (0 : Fin 1) q) (row1_emb q _)).trans ?_
  refine (pay2_apply _ _ _).trans ?_
  refine congrArg₂ (· + ·) ?_ (pay5_apply x0 x1 x2 x3 x4 x5 0 q)
  exact congrArg xo7 (row1_emb q _)

/-- The first point zeroes the accumulator, then adds: its first row is left at zero plus the block's column sums. -/
theorem out_A_7_row0 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : cond1_0 i) (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32) (q : Fin 128) :
    out1_A_7 (F := Ideal) c i arg1 harg1 arg2 harg2 arg3 harg3 arg4 harg4 arg5 harg5 arg6 harg6 arg7 harg7 arg8 harg8 hc0 x0 x1 x2 x3 x4 x5 (ix2 (0 : Fin 2) q)
      = 0 + ∑ s : Fin 5000, k1_pay3 (F := Ideal) x0 x1 x2 x3 x4 x5 (ix2 s q) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5)]
  unfold kernelRun1_A
  dsimp only
  sl_unfold_words
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]
  refine (canon_cons_skip _ _ _ _ ?_).trans ?_
  · exact row0_not_mem q _
  refine (canon_cons_at _ _ _ _ (ix2 (0 : Fin 1) q) (row0_emb q _)).trans ?_
  refine (pay1_apply _ _ _).trans ?_
  refine congrArg₂ (· + ·) ?_ (pay4_apply x0 x1 x2 x3 x4 x5 0 q)
  rw [pay7_eq, View.readCov_eq_canon', View.canon_unit_zero hz]
  exact pay6_apply _

/-- and its second row at zero plus the block's column sums of squares. -/
theorem out_A_7_row1 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S2x128 .f32) (harg8 : arg8.IsWhole) (hc0 : cond1_0 i) (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32) (q : Fin 128) :
    out1_A_7 (F := Ideal) c i arg1 harg1 arg2 harg2 arg3 harg3 arg4 harg4 arg5 harg5 arg6 harg6 arg7 harg7 arg8 harg8 hc0 x0 x1 x2 x3 x4 x5 (ix2 (1 : Fin 2) q)
      = 0 + ∑ s : Fin 5000, k1_pay3 (F := Ideal) x0 x1 x2 x3 x4 x5 (ix2 s q) * k1_pay3 (F := Ideal) x0 x1 x2 x3 x4 x5 (ix2 s q) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4 x5)]
  unfold kernelRun1_A
  dsimp only
  sl_unfold_words
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S1x128) hz]
  refine (canon_cons_at _ _ _ _ (ix2 (0 : Fin 1) q) (row1_emb q _)).trans ?_
  refine (pay2_apply _ _ _).trans ?_
  refine congrArg₂ (· + ·) ?_ (pay5_apply x0 x1 x2 x3 x4 x5 0 q)
  rw [View.readCov_eq_canon']
  show View.canon _ ((Rect.unit (s := S2x128) ![1, 0] ![1, 128] _).emb (ix2 (0 : Fin 1) q)) = 0
  rw [row1_emb q]
  refine (canon_cons_skip _ _ _ _ ?_).trans ?_
  · exact row1_not_mem q _
  rw [View.canon_unit_zero hz]
  exact pay6_apply _

end Cert.KernelIdeal.Region1
end
-- ==== Proof.Region1Acc.lean ====
import proofs.«149305_j21114059227218_1_alg».proof.Proof.Gen.KernelIdeal.Frame
import proofs.«149305_j21114059227218_1_alg».proof.Proof.Region1Pay
import proofs.«149305_j21114059227218_1_alg».proof.Proof.Region1Out7

noncomputable section

open scoped BigOperators
open Idealize.ShloMosaic Idealize.ShloMosaic.TcCoe Idealize.SL.Sem
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- Entry (s, q) of the block point `t` stores: the perceptron of row `s` of the blocks the point loads. -/
def blockVal (c : Dev nD) (t : Fin cfg1.N) (s : Fin 5000) (q : Fin 128) : EReal :=
  k1_pay3 (F := Ideal) (iblk1 V c 0 t) (iblk1 V c 1 t) (iblk1 V c 2 t) (iblk1 V c 3 t) (iblk1 V c 4 t) (iblk1 V c 5 t) (ix2 s q)

/-- Column `q`'s sum over the block of point `n` (zero past the grid). -/
def colSum (c : Dev nD) (n : ℕ) (q : Fin 128) : EReal :=
  if h : n < cfg1.N then ∑ s : Fin 5000, blockVal V c ⟨n, h⟩ s q else 0

/-- Column `q`'s sum of squares over the block of point `n` (zero past the grid). -/
def colSumSq (c : Dev nD) (n : ℕ) (q : Fin 128) : EReal :=
  if h : n < cfg1.N then ∑ s : Fin 5000, blockVal V c ⟨n, h⟩ s q * blockVal V c ⟨n, h⟩ s q else 0

/-- After point `n` the accumulator's first row holds the column sums of the blocks of points `0 … n`:
    the first point starts from zero, every later one adds to what the point before left. -/
theorem acc_row0 (c : Dev nD) : ∀ (n : ℕ) (hn : n < cfg1.N) (q : Fin 128),
    (outsAt1 V c n hn).2 (ix2 (0 : Fin 2) q) = ∑ t ∈ Finset.range (n + 1), colSum V c t q
  | 0, hn, q => by
    rw [outsAt1_A V c ⟨0, hn⟩ rfl]
    dsimp only
    refine (out_A_7_row0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) q).trans ?_
    rw [Finset.sum_range_one, zero_add]
    unfold colSum
    rw [dif_pos hn]
    rfl
  | n + 1, hn, q => by
    have hN : cfg1.N = 20 := N_1
    have hB : ¬(⟨n + 1, hn⟩ : Fin cfg1.N).val % 20 = 0 := by dsimp only; omega
    rw [outsAt1_B V c ⟨n + 1, hn⟩ hB]
    dsimp only
    refine (out_B_7_row0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
      (outsAt1 V c n (Nat.lt_of_succ_lt hn)).2 q).trans ?_
    rw [Finset.sum_range_succ]
    refine congrArg₂ (· + ·) (acc_row0 c n (Nat.lt_of_succ_lt hn) q) ?_
    unfold colSum
    rw [dif_pos hn]
    rfl

/-- and its second row the column sums of squares. -/
theorem acc_row1 (c : Dev nD) : ∀ (n : ℕ) (hn : n < cfg1.N) (q : Fin 128),
    (outsAt1 V c n hn).2 (ix2 (1 : Fin 2) q) = ∑ t ∈ Finset.range (n + 1), colSumSq V c t q
  | 0, hn, q => by
    rw [outsAt1_A V c ⟨0, hn⟩ rfl]
    dsimp only
    refine (out_A_7_row1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) q).trans ?_
    rw [Finset.sum_range_one, zero_add]
    unfold colSumSq
    rw [dif_pos hn]
    rfl
  | n + 1, hn, q => by
    have hN : cfg1.N = 20 := N_1
    have hB : ¬(⟨n + 1, hn⟩ : Fin cfg1.N).val % 20 = 0 := by dsimp only; omega
    rw [outsAt1_B V c ⟨n + 1, hn⟩ hB]
    dsimp only
    refine (out_B_7_row1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)
      (outsAt1 V c n (Nat.lt_of_succ_lt hn)).2 q).trans ?_
    rw [Finset.sum_range_succ]
    refine congrArg₂ (· + ·) (acc_row1 c n (Nat.lt_of_succ_lt hn) q) ?_
    unfold colSumSq
    rw [dif_pos hn]
    rfl

end Cert.KernelIdeal.Region1
end
-- ==== Proof.Region1Sum.lean ====
import Idealize.ShloMosaic.Lib.ValueIdx

open scoped BigOperators

namespace Cert.KernelIdeal.Region1

/-- A sum over the 100000 rows, taken block by block: 20 blocks of 5000 consecutive rows. -/
theorem sum_rows {M : Type*} [AddCommMonoid M] (f : Fin 100000 → M) :
    ∑ r : Fin 100000, f r = ∑ t : Fin 20, ∑ s : Fin 5000, f ⟨5000 * t.val + s.val, by have := t.isLt; have := s.isLt; omega⟩ := by
  rw [← Fintype.sum_prod_type (f := fun p : Fin 20 × Fin 5000 => f ⟨5000 * p.1.val + p.2.val, by have := p.1.isLt; have := p.2.isLt; omega⟩)]
  refine (Fintype.sum_equiv (finProdFinEquiv (m := 20) (n := 5000)) _ f fun p => congrArg f (Fin.ext ?_)).symm
  show 5000 * p.1.val + p.2.val = p.2.val + 5000 * p.1.val
  omega

end Cert.KernelIdeal.Region1
-- ==== Proof.Region1Stats.lean ====
import proofs.«149305_j21114059227218_1_alg».proof.Proof.Gen.KernelIdeal.Frame
import proofs.«149305_j21114059227218_1_alg».proof.Proof.Region1Acc
import proofs.«149305_j21114059227218_1_alg».proof.Proof.Region1Blk
import proofs.«149305_j21114059227218_1_alg».proof.Proof.Region1Sum
import Idealize.ShloMosaic.Lib.Pipeline.Value

noncomputable section

open scoped BigOperators
open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- The last point of the grid. -/
abbrev tLast : Fin cfg1.N := ⟨19, by rw [show cfg1.N = 20 from N_1]; decide⟩

/-- What the last point leaves in the accumulator, as contents of the accumulator's array (its one block is the array). -/
abbrev accLast (c : Dev nD) : Buf (Elt Ideal) ((c : Thread nD τ).loc main_v17_1) := (outsAt1 V c tLast.val tLast.isLt).2

/-- The one write-back, at the last point, writes it: block (0, 0) of the [2,128] array read through zero offsets is the array. -/
theorem flushed7_eq (c : Dev nD) (t : Fin cfg1.N) (hf : (cfg1.win 7).flush t = true) :
    (dat1 V c).flushed 7 t = ((cfg1.win 7).blk t).view.read (Elt Ideal) (accLast V c) := by
  have hN : cfg1.N = 20 := N_1
  have h19 : t.val = 19 := by have := (flush1_7 t).mp hf; have := t.isLt; omega
  obtain rfl : t = tLast := Fin.ext h19
  show (cfg1.win 7).cut (grid1.coords tLast) ((dat1 V c).after 7 tLast) = _
  rw [after1_7]
  have hz' : (fun a => win1_7.index tLast a * main_v17_1.ty.shape.size a) = fun _ => 0 := funext fun a => by fin_cases a <;> decide
  exact (Memref.read_access_unit_zero (Elt Ideal) main_v17_1 hz' (fun a => by rw [congrFun hz' a]; simp) (accLast V c)).symm

/-- So the accumulator's array ends holding what the last point leaves (the last point's block covers it). -/
theorem final7 (c : Dev nD) : (dat1 V c).arrAt 7 cfg1.N = accLast V c :=
  (dat1 V c).arrAt_eq_of_cover 7 (accLast V c) (flushed7_eq V c) fun i =>
    ⟨tLast, (flush1_7 tLast).mpr rfl, by
      show i ∈ ((View.whole main_v17_1).slice (win1_7.rect tLast)).set
      rw [View.set_slice_whole, Rect.mem_set_unit]
      intro a
      have h0 : (i 0 : Nat) < 2 := (i 0).isLt
      have h1 : (i 1 : Nat) < 128 := (i 1).isLt
      match a with
      | ⟨0, _⟩ => show win1_7.index tLast 0 * win1_7.size 0 ≤ (i 0 : Nat) ∧ (i 0 : Nat) < win1_7.index tLast 0 * win1_7.size 0 + win1_7.xsize (grid1.coords tLast) 0
                  rw [show win1_7.index tLast 0 * win1_7.size 0 = 0 from by decide +kernel, show win1_7.xsize (grid1.coords tLast) 0 = 2 from by decide +kernel]; omega
      | ⟨1, _⟩ => show win1_7.index tLast 1 * win1_7.size 1 ≤ (i 1 : Nat) ∧ (i 1 : Nat) < win1_7.index tLast 1 * win1_7.size 1 + win1_7.xsize (grid1.coords tLast) 1
                  rw [show win1_7.index tLast 1 * win1_7.size 1 = 0 from by decide +kernel, show win1_7.xsize (grid1.coords tLast) 1 = 128 from by decide +kernel]; omega⟩

/-- The column sums over all twenty blocks are the column sums over all rows. -/
theorem sum_colSum (c : Dev nD) (q : Fin 128) :
    ∑ t ∈ Finset.range 20, colSum V c t q = ∑ r : Fin 100000, H V c r q := by
  have hN : cfg1.N = 20 := N_1
  rw [sum_rows (fun r => H V c r q), Finset.sum_range]
  refine Finset.sum_congr rfl fun t _ => ?_
  have ht : t.val < cfg1.N := lt_of_lt_of_eq t.isLt hN.symm
  unfold colSum
  rw [dif_pos ht]
  refine Finset.sum_congr rfl fun s _ => ?_
  exact pay3_blocks V c ⟨t.val, ht⟩ s q _

/-- The column sums of squares likewise. -/
theorem sum_colSumSq (c : Dev nD) (q : Fin 128) :
    ∑ t ∈ Finset.range 20, colSumSq V c t q = ∑ r : Fin 100000, H V c r q * H V c r q := by
  have hN : cfg1.N = 20 := N_1
  rw [sum_rows (fun r => H V c r q * H V c r q), Finset.sum_range]
  refine Finset.sum_congr rfl fun t _ => ?_
  have ht : t.val < cfg1.N := lt_of_lt_of_eq t.isLt hN.symm
  unfold colSumSq
  rw [dif_pos ht]
  refine Finset.sum_congr rfl fun s _ => ?_
  unfold blockVal
  rw [pay3_blocks V c ⟨t.val, ht⟩ s q (by have := t.isLt; have := s.isLt; omega)]

/-- ROW 0 OF THE STATISTICS ARRAY after the region: column `q`'s sum of the region's value over all 100000 rows. -/
theorem arr_sum (c : Dev nD) (q : Fin 128) :
    (dat1 V c).arrAt 7 cfg1.N (ix2 (0 : Fin 2) q) = ∑ r : Fin 100000, H V c r q := by
  rw [final7 V c]
  exact (acc_row0 V c 19 tLast.isLt q).trans (sum_colSum V c q)

/-- ROW 1: column `q`'s sum of squares. -/
theorem arr_sumsq (c : Dev nD) (q : Fin 128) :
    (dat1 V c).arrAt 7 cfg1.N (ix2 (1 : Fin 2) q) = ∑ r : Fin 100000, H V c r q * H V c r q := by
  rw [final7 V c]
  exact (acc_row1 V c 19 tLast.isLt q).trans (sum_colSumSq V c q)

end Cert.KernelIdeal.Region1
end
-- ==== Proof.KVal.lean ====
import proofs.«149305_j21114059227218_1_alg».proof.Proof.KRun
import proofs.«149305_j21114059227218_1_alg».proof.Proof.Region0
import proofs.«149305_j21114059227218_1_alg».proof.Proof.Region1Rows
import proofs.«149305_j21114059227218_1_alg».proof.Proof.Region2
import proofs.«149305_j21114059227218_1_alg».proof.Proof.HostKVal
import proofs.«149305_j21114059227218_1_alg».proof.Proof.Hidden
import proofs.«149305_j21114059227218_1_alg».proof.Proof.Region1Blk
import proofs.«149305_j21114059227218_1_alg».proof.Proof.Region1Stats

set_option maxRecDepth 16384

noncomputable section

namespace Cert.KernelIdeal.KVal

open scoped BigOperators
open Idealize.ShloMosaic Idealize.ShloMosaic.TcCoe Idealize.SL.Sem
open Idealize.ShloMosaic.ValueIdx
open Idealize.ShloMosaic.Pipeline (Dat)
open Cert.KernelIdeal.Gen

/-! # The kernel's result, entry by entry

The three regions and the host operations between them compose: the result at row `r`, lane `q` is the hidden
value `H r q` (the perceptron of the mixed row plus its neighbourhood sum) normalised by the mean and the variance of
lane `q` over all rows, then scaled and shifted by the lane's two numbers. -/

/-- The number of rows, as the program's constant. -/
abbrev Nb : EReal := Ideal.ofBits .f32 0x47C35000#32

theorem normedAt_congr {x x' mu mu' var var' gam gam' bet bet' : EReal} (h1 : x = x') (h2 : mu = mu')
    (h3 : var = var') (h4 : gam = gam') (h5 : bet = bet') :
    Region2.normedAt x mu var gam bet = Region2.normedAt x' mu' var' gam' bet' := by
  rw [h1, h2, h3, h4, h5]

variable (m : (ℓ : Loc nD τ sig) → Buf (Elt Ideal) ℓ) (ρ : Dev nD → PrngReg) (c : Dev nD)

/-! ## What region 1 is entered with -/

/-- The mixed array, as region 0 leaves it. -/
theorem W1_v0 :
    W1 m ρ c (Proc.devRef .tc main_v0)
      = Region0.mixed (m ((c : Thread nD τ).loc main_arg3)) (m ((c : Thread nD τ).loc main_arg0)) (m ((c : Thread nD τ).loc main_arg1)) :=
  (KRun.W1_mixed m ρ c).trans (Region0.arr_eq (V0 m ρ) c)

/-- Region 1's first operand: the mixed array. -/
theorem V2_v0 :
    V2 m ρ c main_v0
      = Region0.mixed (m ((c : Thread nD τ).loc main_arg3)) (m ((c : Thread nD τ).loc main_arg0)) (m ((c : Thread nD τ).loc main_arg1)) :=
  (KRun.W2_mixed m ρ c).trans (W1_v0 m ρ c)

/-- Region 1's second operand: the neighbourhood sum of the mixed array over the edge list. -/
theorem V2_v14 :
    V2 m ρ c main_v14
      = HostK.neighbourSum (F := Ideal)
          (Region0.mixed (m ((c : Thread nD τ).loc main_arg3)) (m ((c : Thread nD τ).loc main_arg0)) (m ((c : Thread nD τ).loc main_arg1)))
          (m ((c : Thread nD τ).loc main_arg2)) := by
  show StableHlo.after hostOps1 (W1 m ρ c) (Proc.devRef .tc main_v14) = _
  rw [HostK.after1_agg (W1 m ρ c), W1_v0 m ρ c, KRun.W1_main_arg2 m ρ c]

/-- The first bias row. -/
theorem V2_v15 :
    V2 m ρ c main_v15 = shapeCast S1x128 (m ((c : Thread nD τ).loc main_arg5)) shapeCasts_S128_S1x128 := by
  show StableHlo.after hostOps1 (W1 m ρ c) (Proc.devRef .tc main_v15) = _
  rw [HostK.after1_b1 (W1 m ρ c), KRun.W1_main_arg5 m ρ c]

/-- The second bias row. -/
theorem V2_v16 :
    V2 m ρ c main_v16 = shapeCast S1x128 (m ((c : Thread nD τ).loc main_arg7)) shapeCasts_S128_S1x128 := by
  show StableHlo.after hostOps1 (W1 m ρ c) (Proc.devRef .tc main_v16) = _
  rw [HostK.after1_b2 (W1 m ρ c), KRun.W1_main_arg7 m ρ c]

theorem V2_arg4 : V2 m ρ c main_arg4 = m ((c : Thread nD τ).loc main_arg4) := KRun.W2_main_arg4 m ρ c
theorem V2_arg6 : V2 m ρ c main_arg6 = m ((c : Thread nD τ).loc main_arg6) := KRun.W2_main_arg6 m ρ c

/-- The hidden value at row `r`, lane `q`, of the launch memory. -/
abbrev H (r : Fin 100000) (q : Fin 128) : EReal :=
  Cert.Hidden.hid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r q

/-- Region 1's row output is the hidden value. -/
theorem rows_apply (r : Fin 100000) (q : Fin 128) :
    (dat1 (V2 m ρ) c).arrAt 6 cfg1.N (ix2 r q) = H m c r q := by
  rw [Region1Rows.arr_h2 (V2 m ρ) c r q, V2_v0 m ρ c, V2_v14 m ρ c, V2_v15 m ρ c, V2_v16 m ρ c, V2_arg4 m ρ c, V2_arg6 m ρ c]
  rfl

/-! ## What region 2 is entered with -/

/-- Region 2's first operand: the hidden values. -/
theorem V4_rows (r : Fin 100000) (q : Fin 128) : V4 m ρ c main_v17_0 (ix2 r q) = H m c r q :=
  (congrFun ((KRun.W4_h2 m ρ c).trans (KRun.W3_h2 m ρ c)) (ix2 r q)).trans (rows_apply m ρ c r q)

/-- The scale row at lane `q`. -/
theorem V4_gamma (q : Fin 128) :
    V4 m ρ c main_v30 (ix2 (0 : Fin 1) q) = m ((c : Thread nD τ).loc main_arg8) (ix1 q) := by
  show StableHlo.after hostOps2 (W3 m ρ c) (Proc.devRef .tc main_v30) (ix2 (0 : Fin 1) q) = _
  rw [HostK.after2_gamma (W3 m ρ c), KRun.W3_main_arg8 m ρ c]
  exact HostK.oneRow_apply _ q

/-- The shift row at lane `q`. -/
theorem V4_beta (q : Fin 128) :
    V4 m ρ c main_v31 (ix2 (0 : Fin 1) q) = m ((c : Thread nD τ).loc main_arg9) (ix1 q) := by
  show StableHlo.after hostOps2 (W3 m ρ c) (Proc.devRef .tc main_v31) (ix2 (0 : Fin 1) q) = _
  rw [HostK.after2_beta (W3 m ρ c), KRun.W3_main_arg9 m ρ c]
  exact HostK.oneRow_apply _ q

/-- The mean row at lane `q`, from the accumulated sums. -/
theorem V4_mean (q : Fin 128) :
    V4 m ρ c main_v28 (ix2 (0 : Fin 1) q)
      = Ideal.div ((dat1 (V2 m ρ) c).arrAt 7 cfg1.N (ix2 (0 : Fin 2) q)) Nb := by
  show StableHlo.after hostOps2 (W3 m ρ c) (Proc.devRef .tc main_v28) (ix2 (0 : Fin 1) q) = _
  rw [HostK.after2_mean (W3 m ρ c), KRun.W3_stats m ρ c]
  exact HostK.mean_apply _ q

/-- The variance row at lane `q`, from the accumulated sums. -/
theorem V4_var (q : Fin 128) :
    V4 m ρ c main_v29 (ix2 (0 : Fin 1) q)
      = Ideal.div ((dat1 (V2 m ρ) c).arrAt 7 cfg1.N (ix2 (1 : Fin 2) q)) Nb
        - Ideal.div ((dat1 (V2 m ρ) c).arrAt 7 cfg1.N (ix2 (0 : Fin 2) q)) Nb
          * Ideal.div ((dat1 (V2 m ρ) c).arrAt 7 cfg1.N (ix2 (0 : Fin 2) q)) Nb := by
  show StableHlo.after hostOps2 (W3 m ρ c) (Proc.devRef .tc main_v29) (ix2 (0 : Fin 1) q) = _
  rw [HostK.after2_var (W3 m ρ c), KRun.W3_stats m ρ c]
  exact HostK.var_apply _ q

/-! ## The result -/

/-- The result at row `r`, lane `q`, given what the accumulated sums are. -/
theorem res_apply_of (r : Fin 100000) (q : Fin 128)
    (hsum : (dat1 (V2 m ρ) c).arrAt 7 cfg1.N (ix2 (0 : Fin 2) q) = ∑ r' : Fin 100000, H m c r' q)
    (hsq : (dat1 (V2 m ρ) c).arrAt 7 cfg1.N (ix2 (1 : Fin 2) q) = ∑ r' : Fin 100000, H m c r' q * H m c r' q) :
    W5 m ρ c (Proc.devRef .tc main_v32) (ix2 r q)
      = Region2.normedAt (H m c r q) (Ideal.div (∑ r' : Fin 100000, H m c r' q) Nb)
          (Ideal.div (∑ r' : Fin 100000, H m c r' q * H m c r' q) Nb
            - Ideal.div (∑ r' : Fin 100000, H m c r' q) Nb * Ideal.div (∑ r' : Fin 100000, H m c r' q) Nb)
          (m ((c : Thread nD τ).loc main_arg8) (ix1 q)) (m ((c : Thread nD τ).loc main_arg9) (ix1 q)) := by
  refine (congrFun (KRun.W5_res m ρ c) (ix2 r q)).trans ?_
  refine (Region2.arr_normed (V4 m ρ) c r q).trans ?_
  refine normedAt_congr (V4_rows m ρ c r q) ((V4_mean m ρ c q).trans ?_) ((V4_var m ρ c q).trans ?_)
    (V4_gamma m ρ c q) (V4_beta m ρ c q)
  · rw [hsum]
  · rw [hsum, hsq]

/-- The value region 1 computes at row `r`, lane `q`, of the arrays it is entered with, is the hidden value. -/
theorem hidden_V2 (r : Fin 100000) (q : Fin 128) : Region1.H (V2 m ρ) c r q = H m c r q := by
  unfold Region1.H
  rw [Region1.hidden_eq_mlpRow, V2_v0 m ρ c, V2_v14 m ρ c, V2_v15 m ρ c, V2_v16 m ρ c, V2_arg4 m ρ c, V2_arg6 m ρ c]
  rfl

/-- The result at row `r`, lane `q`, given the accumulated sums as sums of the values region 1 computes. -/
theorem res_apply_of_acc (r : Fin 100000) (q : Fin 128)
    (hsum : (dat1 (V2 m ρ) c).arrAt 7 cfg1.N (ix2 (0 : Fin 2) q) = ∑ r' : Fin 100000, Region1.H (V2 m ρ) c r' q)
    (hsq : (dat1 (V2 m ρ) c).arrAt 7 cfg1.N (ix2 (1 : Fin 2) q)
      = ∑ r' : Fin 100000, Region1.H (V2 m ρ) c r' q * Region1.H (V2 m ρ) c r' q) :
    W5 m ρ c (Proc.devRef .tc main_v32) (ix2 r q)
      = Region2.normedAt (H m c r q) (Ideal.div (∑ r' : Fin 100000, H m c r' q) Nb)
          (Ideal.div (∑ r' : Fin 100000, H m c r' q * H m c r' q) Nb
            - Ideal.div (∑ r' : Fin 100000, H m c r' q) Nb * Ideal.div (∑ r' : Fin 100000, H m c r' q) Nb)
          (m ((c : Thread nD τ).loc main_arg8) (ix1 q)) (m ((c : Thread nD τ).loc main_arg9) (ix1 q)) := by
  have e1 : (∑ r' : Fin 100000, Region1.H (V2 m ρ) c r' q) = ∑ r' : Fin 100000, H m c r' q :=
    Finset.sum_congr rfl fun r' _ => hidden_V2 m ρ c r' q
  have e2 : (∑ r' : Fin 100000, Region1.H (V2 m ρ) c r' q * Region1.H (V2 m ρ) c r' q)
      = ∑ r' : Fin 100000, H m c r' q * H m c r' q :=
    Finset.sum_congr rfl fun r' _ => by rw [hidden_V2 m ρ c r' q]
  exact res_apply_of m ρ c r q (hsum.trans e1) (hsq.trans e2)

/-- THE RESULT at row `r`, lane `q`: the hidden value normalised by its lane's mean and variance over all rows,
    scaled and shifted. -/
theorem res_apply (r : Fin 100000) (q : Fin 128) :
    W5 m ρ c (Proc.devRef .tc main_v32) (ix2 r q)
      = Region2.normedAt (H m c r q) (Ideal.div (∑ r' : Fin 100000, H m c r' q) Nb)
          (Ideal.div (∑ r' : Fin 100000, H m c r' q * H m c r' q) Nb
            - Ideal.div (∑ r' : Fin 100000, H m c r' q) Nb * Ideal.div (∑ r' : Fin 100000, H m c r' q) Nb)
          (m ((c : Thread nD τ).loc main_arg8) (ix1 q)) (m ((c : Thread nD τ).loc main_arg9) (ix1 q)) :=
  res_apply_of_acc m ρ c r q (Region1.arr_sum (V2 m ρ) c q) (Region1.arr_sumsq (V2 m ρ) c q)

end Cert.KernelIdeal.KVal

end
-- ==== Proof.RefOps.lean ====
import proofs.«149305_j21114059227218_1_alg».proof.Proof.Gen.ReferenceIdeal
import Idealize.ShloMosaic.Lib.StableHlo.Run

/-!
The reference program's run, written out.

The reference is a host-only program: a straight line of tensor operations, one of which is a call of a
module-local function (the variance), which itself calls another (a select). Unfolding the two callees at
their call sites turns the program into one list of operations; the library's theorem for a straight line
then says that every execution terminates with each buffer at the fold of the operations' results over the
launch contents. The fold is then read stage by stage: the mixed input, the aggregated neighbours, the
two-layer perceptron's output, and its normalization over the rows.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two calls unfolded: the first fifty-two of the main function, the
    nineteen of the variance function over the call's own buffers followed by the three of the select it
    calls, then the remaining sixteen of the main function. -/
abbrev ops : List (HloOp τ sig (Elt F)) :=
  [ StableHlo.unary main_arg3 main_v0 (Host.negf : (⟨S2, .f32⟩ : BufTy).Contents (Elt F) → (⟨S2, .f32⟩ : BufTy).Contents (Elt F)),
    StableHlo.unary main_v0 main_v1 (Host.exp : (⟨S2, .f32⟩ : BufTy).Contents (Elt F) → (⟨S2, .f32⟩ : BufTy).Contents (Elt F)),
    StableHlo.nullary main_cst (constant S_ .f32 0x3F800000#32),
    StableHlo.unary main_cst main_v2 (broadcastInDim S2 ![] bcast_S_S2 : (⟨S_, .f32⟩ : BufTy).Contents (Elt F) → (⟨S2, .f32⟩ : BufTy).Contents (Elt F)),
    StableHlo.binary main_v2 main_v1 main_v3 (addf : (⟨S2, .f32⟩ : BufTy).Contents (Elt F) → (⟨S2, .f32⟩ : BufTy).Contents (Elt F) → (⟨S2, .f32⟩ : BufTy).Contents (Elt F)),
    StableHlo.nullary main_cst_0 (constant S_ .f32 0x3F800000#32),
    StableHlo.unary main_cst_0 main_v4 (broadcastInDim S2 ![] bcast_S_S2 : (⟨S_, .f32⟩ : BufTy).Contents (Elt F) → (⟨S2, .f32⟩ : BufTy).Contents (Elt F)),
    StableHlo.binary main_v4 main_v3 main_v5 (Host.divf : (⟨S2, .f32⟩ : BufTy).Contents (Elt F) → (⟨S2, .f32⟩ : BufTy).Contents (Elt F) → (⟨S2, .f32⟩ : BufTy).Contents (Elt F)),
    StableHlo.unary main_v5 main_v6 ((extractStridedSlice S1 ![0] · slices_S2_S1_0) : (⟨S2, .f32⟩ : BufTy).Contents (Elt F) → (⟨S1, .f32⟩ : BufTy).Contents (Elt F)),
    StableHlo.reshape main_v6 main_v7 rfl shapeCasts_S1_S_,
    StableHlo.unary main_v7 main_v8 (broadcastInDim S100000x128 ![] bcast_S_S100000x128 : (⟨S_, .f32⟩ : BufTy).Contents (Elt F) → (⟨S100000x128, .f32⟩ : BufTy).Contents (Elt F)),
    StableHlo.binary main_v8 main_arg0 main_v9 (mulf : (⟨S100000x128, .f32⟩ : BufTy).Contents (Elt F) → (⟨S100000x128, .f32⟩ : BufTy).Contents (Elt F) → (⟨S100000x128, .f32⟩ : BufTy).Contents (Elt F)),
    StableHlo.unary main_v5 main_v10 ((extractStridedSlice S1 ![1] · slices_S2_S1_1) : (⟨S2, .f32⟩ : BufTy).Contents (Elt F) → (⟨S1, .f32⟩ : BufTy).Contents (Elt F)),
    StableHlo.reshape main_v10 main_v11 rfl shapeCasts_S1_S_,
    StableHlo.unary main_v11 main_v12 (broadcastInDim S100000x128 ![] bcast_S_S100000x128 : (⟨S_, .f32⟩ : BufTy).Contents (Elt F) → (⟨S100000x128, .f32⟩ : BufTy).Contents (Elt F)),
    StableHlo.binary main_v12 main_arg1 main_v13 (mulf : (⟨S100000x128, .f32⟩ : BufTy).Contents (Elt F) → (⟨S100000x128, .f32⟩ : BufTy).Contents (Elt F) → (⟨S100000x128, .f32⟩ : BufTy).Contents (Elt F)),
    StableHlo.binary main_v9 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg2 main_v15 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v15 main_v16 rfl shapeCasts_S1x1600000_S1600000,
    StableHlo.unary main_arg2 main_v17 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v17 main_v18 rfl shapeCasts_S1x1600000_S1600000,
    StableHlo.nullary main_c (constantI S_ 32 0#32),
    StableHlo.unary main_c main_v19 (broadcastInDim S1600000 ![] bcast_S_S1600000 : (⟨S_, .i32⟩ : BufTy).Contents (Elt F) → (⟨S1600000, .i32⟩ : BufTy).Contents (Elt F)),
    StableHlo.binary main_v16 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v21 (broadcastInDim S1600000 ![] bcast_S_S1600000 : (⟨S_, .i32⟩ : BufTy).Contents (Elt F) → (⟨S1600000, .i32⟩ : BufTy).Contents (Elt F)),
    StableHlo.binary main_v16 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v16 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v14 main_v24 main_v25 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_2 (constant S_ .f32 0x00000000#32),
    StableHlo.unary main_cst_2 main_v26 (broadcastInDim S100000x128 ![] bcast_S_S100000x128 : (⟨S_, .f32⟩ : BufTy).Contents (Elt F) → (⟨S100000x128, .f32⟩ : BufTy).Contents (Elt F)),
    StableHlo.unary main_v18 main_v27 (broadcastInDim S1600000x1 ![0] bcast_S1600000_S1600000x1_0 : (⟨S1600000, .i32⟩ : BufTy).Contents (Elt F) → (⟨S1600000x1, .i32⟩ : BufTy).Contents (Elt F)),
    StableHlo.ternary main_v26 main_v27 main_v25 main_v28 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v14 main_v28 main_v29 (addf : (⟨S100000x128, .f32⟩ : BufTy).Contents (Elt F) → (⟨S100000x128, .f32⟩ : BufTy).Contents (Elt F) → (⟨S100000x128, .f32⟩ : BufTy).Contents (Elt F)),
    StableHlo.binary main_v29 main_arg4 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S100000x128 ![0, 1] bcast_S1x128_S100000x128_0_1 : (⟨S1x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x00000000#32),
    StableHlo.unary main_cst_3 main_v34 (broadcastInDim S100000x128 ![] bcast_S_S100000x128 : (⟨S_, .f32⟩ : BufTy).Contents (Elt F) → (⟨S100000x128, .f32⟩ : BufTy).Contents (Elt F)),
    StableHlo.binary main_v33 main_v34 main_v35 (maximumf : (⟨S100000x128, .f32⟩ : BufTy).Contents (Elt F) → (⟨S100000x128, .f32⟩ : BufTy).Contents (Elt F) → (⟨S100000x128, .f32⟩ : BufTy).Contents (Elt F)),
    StableHlo.binary main_v35 main_arg6 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v39 main_cst_4 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (TRef.of main_v39 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v39 : TRef sig ⟨S100000x128, .f32⟩) main_call0.v4 main_call0.v5 subf,
    StableHlo.TRef.binary main_call0.v5 main_call0.v5 main_call0.v6 mulf,
    StableHlo.TRef.unary (TRef.of main_c_6 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S128 ![] bcast_S_S128),
    StableHlo.TRef.ternary main_call0.v12 main_call0.v11 main_call0_call0.v1 main_call0_call0.v2 (fun p a b => select (broadcastInDim S128 ![] bcast_S_S128 p) a b),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v45 main_v46 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg8 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (mulf : (⟨S100000x128, .f32⟩ : BufTy).Contents (Elt F) → (⟨S100000x128, .f32⟩ : BufTy).Contents (Elt F) → (⟨S100000x128, .f32⟩ : BufTy).Contents (Elt F)),
    StableHlo.unary main_arg9 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 2000000 in
/-- The main function is that straight line: sequencing is defined by recursion on the program, so with the
    two callees' definitions unfolded at their calls both sides compute to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters: every weakly fair execution of the main function terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
import proofs.«149305_j21114059227218_1_alg».proof.Proof.RefOps

/-!
The reference program's run, written out.

The reference is a host-only program: a straight line of tensor operations, one of which is a call of a
module-local function (the variance), which itself calls another (a select). Unfolding the two callees at
their call sites turns the program into one list of operations; the library's theorem for a straight line
then says that every execution terminates with each buffer at the fold of the operations' results over the
launch contents. The fold is then read stage by stage: the mixed input, the aggregated neighbours, the
two-layer perceptron's output, and its normalization over the rows.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages

Each definition is the composition of the program's operations in their order, nothing simplified; the
theorems after them read the fold of the run at the stage's result buffer. -/

/-- The two mixing weights: the logistic function of the two parameters, written as the program does,
    one over one plus the exponential of the negation. -/
def refGate (mw : (⟨S2, .f32⟩ : BufTy).Contents (Elt F)) : (⟨S2, .f32⟩ : BufTy).Contents (Elt F) :=
  Host.divf (broadcastInDim S2 ![] bcast_S_S2 (constant S_ .f32 0x3F800000#32))
    (addf (broadcastInDim S2 ![] bcast_S_S2 (constant S_ .f32 0x3F800000#32)) (Host.exp (Host.negf mw)))

/-- The mixed input: the first weight times the first array plus the second weight times the second,
    each weight a slice of one element, reshaped to a scalar and broadcast over the array. -/
def refMixed (mw : (⟨S2, .f32⟩ : BufTy).Contents (Elt F)) (x0 x1 : (⟨S100000x128, .f32⟩ : BufTy).Contents (Elt F)) : (⟨S100000x128, .f32⟩ : BufTy).Contents (Elt F) :=
  addf
    (mulf (broadcastInDim S100000x128 ![] bcast_S_S100000x128
      (shapeCast S_ (extractStridedSlice S1 ![0] (refGate mw) slices_S2_S1_0) shapeCasts_S1_S_)) x0)
    (mulf (broadcastInDim S100000x128 ![] bcast_S_S100000x128
      (shapeCast S_ (extractStridedSlice S1 ![1] (refGate mw) slices_S2_S1_1) shapeCasts_S1_S_)) x1)

/-- The first row of the edge table, as a vector: where each edge reads. -/
def refRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The second row of the edge table, as a vector: where each edge adds. -/
def refRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The read positions with a negative one counted from the end: the number of rows added where the
    position is below zero. -/
def refWrap (e : (⟨S2x1600000, .i32⟩ : BufTy).Contents (Elt F)) : (⟨S1600000, .i32⟩ : BufTy).Contents (Elt F) :=
  select (cmpi .slt (refRow0 e) (broadcastInDim S1600000 ![] bcast_S_S1600000 (constantI S_ 32 0#32)))
    (addi (refRow0 e) (broadcastInDim S1600000 ![] bcast_S_S1600000 (constantI S_ 32 100000#32)))
    (refRow0 e)

/-- The aggregated neighbours: the rows of `h` gathered at the read positions and added, edge by edge,
    into an array of zeros at the add positions. -/
def refAgg (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (refRow1 e))
    (Host.gather gather_S100000x128_S1600000x1_S1600000x128_1_0_n_n_0_1_1128 h
      (broadcastInDim S1600000x1 ![0] bcast_S1600000_S1600000x1_0 (refWrap e)))

/-- The two-layer perceptron of the sum of `h` and its aggregate: a product with the first matrix, the
    first bias added along the rows, the maximum with zero, a product with the second matrix, the second
    bias added along the rows. -/
def refHidden (h agg : (⟨S100000x128, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S100000x128, .f32⟩ : BufTy).Contents (Elt F) :=
  addf
    (Host.dotGeneral dot_S100000x128_S128x128_S100000x128_1_0_0_1_n_n none
      (maximumf
        (addf (Host.dotGeneral dot_S100000x128_S128x128_S100000x128_1_0_0_1_n_n none (addf h agg) W1)
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32)))
      W2)
    (broadcastInDim S100000x128 ![0, 1] bcast_S1x128_S100000x128_0_1 (broadcastInDim S1x128 ![1] bcast_S128_S1x128_1 b2))

/-- The mean of each column: the sum over the rows divided by their number. -/
def refMean (y : (⟨S100000x128, .f32⟩ : BufTy).Contents (Elt F)) : (⟨S128, .f32⟩ : BufTy).Contents (Elt F) :=
  Host.divf (Host.reduceAdd y (constant S_ .f32 0x00000000#32) reducesTo_S100000x128_S128_d0 h_S_)
    (broadcastInDim S128 ![] bcast_S_S128 (constant S_ .f32 0x47C35000#32))

/-- The row count less the correction (the integer zero, converted), as the variance function forms it. -/
def refCount : (⟨S_, .f32⟩ : BufTy).Contents (Elt F) :=
  subf (constant S_ .f32 0x47C35000#32) (sitofp .f32 (constantI S_ 32 0#32 : (⟨S_, .i32⟩ : BufTy).Contents (Elt F)))

/-- The deviations from the column means as the variance function forms them: the means kept as one row,
    divided there, and broadcast over the rows. -/
def refCentered (y : (⟨S100000x128, .f32⟩ : BufTy).Contents (Elt F)) : (⟨S100000x128, .f32⟩ : BufTy).Contents (Elt F) :=
  subf y (broadcastInDim S100000x128 ![0, 1] bcast_S1x128_S100000x128_0_1
    (Host.divf
      (broadcastInDim S1x128 ![1] bcast_S128_S1x128_1
        (Host.reduceAdd y (constant S_ .f32 0x00000000#32) reducesTo_S100000x128_S128_d0 h_S_))
      (broadcastInDim S1x128 ![] bcast_S_S1x128 (constant S_ .f32 0x47C35000#32))))

/-- The variance of each column, as the variance function computes it: the sum over the rows of the squared
    deviations divided by the count, kept where the count is positive and the quiet not-a-number otherwise. -/
def refVar (y : (⟨S100000x128, .f32⟩ : BufTy).Contents (Elt F)) : (⟨S128, .f32⟩ : BufTy).Contents (Elt F) :=
  select (broadcastInDim S128 ![] bcast_S_S128 (cmpf .ogt (refCount (F := F)) (constant S_ .f32 0x00000000#32)))
    (Host.divf
      (Host.reduceAdd (mulf (refCentered y) (refCentered y)) (constant S_ .f32 0x00000000#32) reducesTo_S100000x128_S128_d0 h_S_)
      (broadcastInDim S128 ![] bcast_S_S128 (refCount (F := F))))
    (broadcastInDim S128 ![] bcast_S_S128 (id (constant S_ .f32 0x7FC00000#32)))

/-- The normalization over the rows: the deviation from the column mean, times the reciprocal square root of
    the column variance plus a small constant, times the scale, plus the shift, each broadcast along the rows. -/
def refNormed (y : (⟨S100000x128, .f32⟩ : BufTy).Contents (Elt F)) (γ β : (⟨S128, .f32⟩ : BufTy).Contents (Elt F)) : (⟨S100000x128, .f32⟩ : BufTy).Contents (Elt F) :=
  addf
    (mulf
      (mulf
        (subf y (broadcastInDim S100000x128 ![0, 1] bcast_S1x128_S100000x128_0_1 (broadcastInDim S1x128 ![1] bcast_S128_S1x128_1 (refMean y))))
        (broadcastInDim S100000x128 ![0, 1] bcast_S1x128_S100000x128_0_1 (broadcastInDim S1x128 ![1] bcast_S128_S1x128_1
          (Host.rsqrt (addf (refVar y) (broadcastInDim S128 ![] bcast_S_S128 (constant S_ .f32 0x3727C5AC#32)))))))
      (broadcastInDim S100000x128 ![0, 1] bcast_S1x128_S100000x128_0_1 (broadcastInDim S1x128 ![1] bcast_S128_S1x128_1 γ)))
    (broadcastInDim S100000x128 ![0, 1] bcast_S1x128_S100000x128_0_1 (broadcastInDim S1x128 ![1] bcast_S128_S1x128_1 β))

/-! ## The arguments are not written -/

attribute [local irreducible] Host.reduceAdd Host.gather Host.scatterAdd in
set_option maxRecDepth 8192 in
set_option maxHeartbeats 2000000 in
theorem arg0_eq (V : Valuation τ sig (Elt F)) :
    after ops V (main_arg0 : DevRef τ sig) = V (main_arg0 : DevRef τ sig) := by
  simp only [after_cons, after_nil]
  rfl

attribute [local irreducible] Host.reduceAdd Host.gather Host.scatterAdd in
set_option maxRecDepth 8192 in
set_option maxHeartbeats 2000000 in
theorem arg1_eq (V : Valuation τ sig (Elt F)) :
    after ops V (main_arg1 : DevRef τ sig) = V (main_arg1 : DevRef τ sig) := by
  simp only [after_cons, after_nil]
  rfl

attribute [local irreducible] Host.reduceAdd Host.gather Host.scatterAdd in
set_option maxRecDepth 8192 in
set_option maxHeartbeats 2000000 in
theorem arg2_eq (V : Valuation τ sig (Elt F)) :
    after ops V (main_arg2 : DevRef τ sig) = V (main_arg2 : DevRef τ sig) := by
  simp only [after_cons, after_nil]
  rfl

attribute [local irreducible] Host.reduceAdd Host.gather Host.scatterAdd in
set_option maxRecDepth 8192 in
set_option maxHeartbeats 2000000 in
theorem arg3_eq (V : Valuation τ sig (Elt F)) :
    after ops V (main_arg3 : DevRef τ sig) = V (main_arg3 : DevRef τ sig) := by
  simp only [after_cons, after_nil]
  rfl

attribute [local irreducible] Host.reduceAdd Host.gather Host.scatterAdd in
set_option maxRecDepth 8192 in
set_option maxHeartbeats 2000000 in
theorem arg4_eq (V : Valuation τ sig (Elt F)) :
    after ops V (main_arg4 : DevRef τ sig) = V (main_arg4 : DevRef τ sig) := by
  simp only [after_cons, after_nil]
  rfl

attribute [local irreducible] Host.reduceAdd Host.gather Host.scatterAdd in
set_option maxRecDepth 8192 in
set_option maxHeartbeats 2000000 in
theorem arg5_eq (V : Valuation τ sig (Elt F)) :
    after ops V (main_arg5 : DevRef τ sig) = V (main_arg5 : DevRef τ sig) := by
  simp only [after_cons, after_nil]
  rfl

attribute [local irreducible] Host.reduceAdd Host.gather Host.scatterAdd in
set_option maxRecDepth 8192 in
set_option maxHeartbeats 2000000 in
theorem arg6_eq (V : Valuation τ sig (Elt F)) :
    after ops V (main_arg6 : DevRef τ sig) = V (main_arg6 : DevRef τ sig) := by
  simp only [after_cons, after_nil]
  rfl

attribute [local irreducible] Host.reduceAdd Host.gather Host.scatterAdd in
set_option maxRecDepth 8192 in
set_option maxHeartbeats 2000000 in
theorem arg7_eq (V : Valuation τ sig (Elt F)) :
    after ops V (main_arg7 : DevRef τ sig) = V (main_arg7 : DevRef τ sig) := by
  simp only [after_cons, after_nil]
  rfl

attribute [local irreducible] Host.reduceAdd Host.gather Host.scatterAdd in
set_option maxRecDepth 8192 in
set_option maxHeartbeats 2000000 in
theorem arg8_eq (V : Valuation τ sig (Elt F)) :
    after ops V (main_arg8 : DevRef τ sig) = V (main_arg8 : DevRef τ sig) := by
  simp only [after_cons, after_nil]
  rfl

attribute [local irreducible] Host.reduceAdd Host.gather Host.scatterAdd in
set_option maxRecDepth 8192 in
set_option maxHeartbeats 2000000 in
theorem arg9_eq (V : Valuation τ sig (Elt F)) :
    after ops V (main_arg9 : DevRef τ sig) = V (main_arg9 : DevRef τ sig) := by
  simp only [after_cons, after_nil]
  rfl

/-! ## The fold read at the stages' buffers

The fold unrolls to the chain of the operations' results; whether the buffer read is the one an operation
writes is decided by computation at these literal references, and the typed references' transports are the
identity there, so each equation holds by unfolding. The reductions, the gather and the scatter are kept
folded meanwhile: the equations never look inside them. -/

attribute [local irreducible] Host.reduceAdd Host.gather Host.scatterAdd in
set_option maxRecDepth 8192 in
set_option maxHeartbeats 2000000 in
/-- The mixed input, at its buffer. -/
theorem v14_eq (V : Valuation τ sig (Elt F)) :
    after ops V (main_v14 : DevRef τ sig) = refMixed (V (main_arg3 : DevRef τ sig)) (V (main_arg0 : DevRef τ sig)) (V (main_arg1 : DevRef τ sig)) := by
  simp only [after_cons, after_nil]
  rfl

attribute [local irreducible] Host.reduceAdd Host.gather Host.scatterAdd in
set_option maxRecDepth 8192 in
set_option maxHeartbeats 2000000 in
/-- The aggregated neighbours, at their buffer, from the mixed input's. -/
theorem v28_eq (V : Valuation τ sig (Elt F)) :
    after ops V (main_v28 : DevRef τ sig) = refAgg (after ops V (main_v14 : DevRef τ sig)) (V (main_arg2 : DevRef τ sig)) := by
  simp only [after_cons, after_nil]
  rfl

attribute [local irreducible] Host.reduceAdd Host.gather Host.scatterAdd in
set_option maxRecDepth 8192 in
set_option maxHeartbeats 2000000 in
/-- The perceptron's output, at its buffer, from the two before. -/
theorem v39_eq (V : Valuation τ sig (Elt F)) :
    after ops V (main_v39 : DevRef τ sig)
      = refHidden (after ops V (main_v14 : DevRef τ sig)) (after ops V (main_v28 : DevRef τ sig)) (V (main_arg4 : DevRef τ sig)) (V (main_arg5 : DevRef τ sig)) (V (main_arg6 : DevRef τ sig)) (V (main_arg7 : DevRef τ sig)) := by
  simp only [after_cons, after_nil]
  rfl

attribute [local irreducible] Host.reduceAdd Host.gather Host.scatterAdd in
set_option maxRecDepth 8192 in
set_option maxHeartbeats 2000000 in
/-- The column means, at their buffer (the main function's own). -/
theorem v42_eq (V : Valuation τ sig (Elt F)) :
    after ops V (main_v42 : DevRef τ sig) = refMean (after ops V (main_v39 : DevRef τ sig)) := by
  simp only [after_cons, after_nil]
  rfl

attribute [local irreducible] Host.reduceAdd Host.gather Host.scatterAdd in
set_option maxRecDepth 8192 in
set_option maxHeartbeats 2000000 in
/-- The column variances, at the call's result buffer. -/
theorem v43_eq (V : Valuation τ sig (Elt F)) :
    after ops V (main_v43 : DevRef τ sig) = refVar (after ops V (main_v39 : DevRef τ sig)) := by
  simp only [after_cons, after_nil]
  rfl

attribute [local irreducible] Host.reduceAdd Host.gather Host.scatterAdd in
set_option maxRecDepth 8192 in
set_option maxHeartbeats 2000000 in
/-- The normalized output, at the result buffer, from the perceptron's. -/
theorem v58_eq (V : Valuation τ sig (Elt F)) :
    after ops V (main_v58 : DevRef τ sig) = refNormed (after ops V (main_v39 : DevRef τ sig)) (V (main_arg8 : DevRef τ sig)) (V (main_arg9 : DevRef τ sig)) := by
  simp only [after_cons, after_nil]
  rfl

/-- The result buffer after the run, as the four stages composed over the arguments' launch contents. -/
theorem res_eq (V : Valuation τ sig (Elt F)) :
    after ops V (main_v58 : DevRef τ sig)
      = refNormed
          (refHidden (refMixed (V (main_arg3 : DevRef τ sig)) (V (main_arg0 : DevRef τ sig)) (V (main_arg1 : DevRef τ sig)))
            (refAgg (refMixed (V (main_arg3 : DevRef τ sig)) (V (main_arg0 : DevRef τ sig)) (V (main_arg1 : DevRef τ sig))) (V (main_arg2 : DevRef τ sig)))
            (V (main_arg4 : DevRef τ sig)) (V (main_arg5 : DevRef τ sig)) (V (main_arg6 : DevRef τ sig)) (V (main_arg7 : DevRef τ sig)))
          (V (main_arg8 : DevRef τ sig)) (V (main_arg9 : DevRef τ sig)) := by
  rw [v58_eq, v39_eq, v28_eq, v14_eq]

/-- From any memory with zero counters: every weakly fair execution of the main function terminates with the
    result buffer at the four stages composed over the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
          = refNormed
              (refHidden (refMixed (m ((c.tc : Thread nD τ).loc main_arg3)) (m ((c.tc : Thread nD τ).loc main_arg0)) (m ((c.tc : Thread nD τ).loc main_arg1)))
                (refAgg (refMixed (m ((c.tc : Thread nD τ).loc main_arg3)) (m ((c.tc : Thread nD τ).loc main_arg0)) (m ((c.tc : Thread nD τ).loc main_arg1))) (m ((c.tc : Thread nD τ).loc main_arg2)))
                (m ((c.tc : Thread nD τ).loc main_arg4)) (m ((c.tc : Thread nD τ).loc main_arg5)) (m ((c.tc : Thread nD τ).loc main_arg6)) (m ((c.tc : Thread nD τ).loc main_arg7)))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v58).trans (res_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_main m ρ)

end Cert.ReferenceIdeal.RefRun

end
-- ==== Proof.RefVal.lean ====
import proofs.«149305_j21114059227218_1_alg».proof.Proof.RefRun
import proofs.«149305_j21114059227218_1_alg».proof.Proof.Consts
import proofs.«149305_j21114059227218_1_alg».proof.Proof.LibPlainDot
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

/-!
The reference's stages read at one entry, on the extended reals.

Every operation of a stage is either pointwise (its value at an entry is the scalar operation of the
operands' values there), a re-indexing (a slice, a reshape or a broadcast: its value at an entry is the
operand's at the matching entry), a sum over the rows, or a matrix product (a sum over the contracted
index). Reading the stages entry by entry therefore gives the textbook formulas: a logistic mix, a
two-layer perceptron, and a normalization of each column by its mean and variance.
-/

noncomputable section

open scoped BigOperators

namespace Cert.ReferenceIdeal.RefVal

open Cert.ReferenceIdeal Cert.ReferenceIdeal.Gen Cert.ReferenceIdeal.RefRun Idealize.ShloMosaic Idealize.ShloMosaic.ValueIdx

/-- The number of rows, as an extended real. -/
abbrev N : EReal := (((100000 : ℕ) : ℝ) : EReal)

/-! ## Re-indexings -/

/-- A vector laid along one row and that row laid down every row, read at (r, q), is the vector at q. -/
theorem rowBcast_apply {α : Type} (v : S128.Idx → α) (r : Fin 100000) (q : Fin 128) :
    broadcastInDim S100000x128 ![0, 1] bcast_S1x128_S100000x128_0_1 (broadcastInDim S1x128 ![1] bcast_S128_S1x128_1 v) (ix2 r q)
      = v (ix1 q) := by
  refine (broadcastInDim_oneRow_apply bcast_S1x128_S100000x128_0_1 _ r q).trans ?_
  refine broadcastInDim_apply ![1] bcast_S128_S1x128_1 v (ix2 (0 : Fin 1) q) (ix1 q) ?_
  intro a
  fin_cases a
  show q.val = if (128 : ℕ) = 1 then 0 else q.val
  rw [if_neg (by decide)]

/-- A scalar broadcast over the array reads the scalar. -/
theorem scalarBcast_apply {α : Type} {T : Shape} (h : S_.BroadcastsInDim T ![]) (x : S_.Idx → α) (j : T.Idx) :
    broadcastInDim T ![] h x j = x ix0 :=
  broadcastInDim_scalar_apply h x j

/-- One element of a pair, sliced out and reshaped to a scalar, is that element. -/
theorem pick0_apply {α : Type} (v : S2.Idx → α) :
    shapeCast S_ (extractStridedSlice S1 ![0] v slices_S2_S1_0) shapeCasts_S1_S_ ix0 = v (ix1 (0 : Fin 2)) := by
  refine (shapeCast_apply _ shapeCasts_S1_S_ ix0 (ix1 (0 : Fin 1)) rfl).trans ?_
  refine extractStridedSlice_apply ![0] v slices_S2_S1_0 (ix1 (0 : Fin 1)) (ix1 (0 : Fin 2)) ?_
  intro a
  fin_cases a
  rfl

theorem pick1_apply {α : Type} (v : S2.Idx → α) :
    shapeCast S_ (extractStridedSlice S1 ![1] v slices_S2_S1_1) shapeCasts_S1_S_ ix0 = v (ix1 (1 : Fin 2)) := by
  refine (shapeCast_apply _ shapeCasts_S1_S_ ix0 (ix1 (0 : Fin 1)) rfl).trans ?_
  refine extractStridedSlice_apply ![1] v slices_S2_S1_1 (ix1 (0 : Fin 1)) (ix1 (1 : Fin 2)) ?_
  intro a
  fin_cases a
  rfl

/-! ## The sum over the rows -/

theorem reduces_rows : S100000x128.Reduces [0] S128 := by decide

/-- The index over column q with row r put back is (r, q). -/
theorem lift_rows (q : Fin 128) (r : Fin 100000) : reduces_rows.lift (ix1 q) r = ix2 r q := by
  funext c
  fin_cases c <;> rfl

/-- The host's sum over the rows from the zero literal, read at column q, is the sum over the rows. -/
theorem sumRows_apply (y : FVec Ideal S100000x128 .f32) (q : Fin 128) :
    Host.reduceAdd y (constant (F := Ideal) S_ .f32 0x00000000#32) reducesTo_S100000x128_S128_d0 h_S_ (ix1 q)
      = ∑ r : Fin 100000, y (ix2 r q) := by
  refine (hostReduceAdd_apply y _ reducesTo_S100000x128_S128_d0 h_S_ (ix1 q)).trans ?_
  refine (Ideal.hostReduceAdd_single reducesTo_S100000x128_S128_d0 reduces_rows y _ (ix1 q)).trans ?_
  rw [constant_apply, Cert.Consts.ofBits_zero, zero_add]
  exact Finset.sum_congr rfl fun r _ => congrArg y (lift_rows q r)

/-! ## The mixed input -/

/-- Each mixing weight is the logistic function of its parameter. -/
theorem refGate_apply (mw : FVec Ideal S2 .f32) (i : Fin 2) :
    refGate (F := Ideal) mw (ix1 i) = Ideal.logistic (mw (ix1 i)) := by
  show Ideal.div (broadcastInDim S2 ![] bcast_S_S2 (constant (F := Ideal) S_ .f32 0x3F800000#32) (ix1 i))
      (broadcastInDim S2 ![] bcast_S_S2 (constant (F := Ideal) S_ .f32 0x3F800000#32) (ix1 i) + Ideal.exp (-(mw (ix1 i)))) = _
  rw [scalarBcast_apply, constant_apply]
  exact Cert.Consts.logistic_spelt _

/-- The mixed input at (r, q): the two arrays' entries weighted by the logistic functions of the two parameters. -/
theorem refMixed_apply (mw : FVec Ideal S2 .f32) (x0 x1 : FVec Ideal S100000x128 .f32) (r : Fin 100000) (q : Fin 128) :
    refMixed (F := Ideal) mw x0 x1 (ix2 r q)
      = Ideal.logistic (mw (ix1 (0 : Fin 2))) * x0 (ix2 r q) + Ideal.logistic (mw (ix1 (1 : Fin 2))) * x1 (ix2 r q) := by
  show broadcastInDim S100000x128 ![] bcast_S_S100000x128
        (shapeCast S_ (extractStridedSlice S1 ![0] (refGate (F := Ideal) mw) slices_S2_S1_0) shapeCasts_S1_S_) (ix2 r q) * x0 (ix2 r q)
      + broadcastInDim S100000x128 ![] bcast_S_S100000x128
        (shapeCast S_ (extractStridedSlice S1 ![1] (refGate (F := Ideal) mw) slices_S2_S1_1) shapeCasts_S1_S_) (ix2 r q) * x1 (ix2 r q) = _
  rw [scalarBcast_apply, scalarBcast_apply, pick0_apply, pick1_apply, refGate_apply, refGate_apply]

/-! ## The normalization -/

/-- The mean of column q: the sum over the rows divided by their number. -/
theorem refMean_apply (y : FVec Ideal S100000x128 .f32) (q : Fin 128) :
    refMean (F := Ideal) y (ix1 q) = Ideal.div (∑ r : Fin 100000, y (ix2 r q)) N := by
  show Ideal.div (Host.reduceAdd y (constant (F := Ideal) S_ .f32 0x00000000#32) reducesTo_S100000x128_S128_d0 h_S_ (ix1 q))
      (broadcastInDim S128 ![] bcast_S_S128 (constant (F := Ideal) S_ .f32 0x47C35000#32) (ix1 q)) = _
  rw [sumRows_apply, scalarBcast_apply, constant_apply, Cert.Consts.ofBits_rows]

/-- The normalized output at (r, q): the deviation from the column mean times the reciprocal square root of the
    column variance plus the small constant, times the scale, plus the shift. -/
theorem refNormed_apply (y : FVec Ideal S100000x128 .f32) (γ β : FVec Ideal S128 .f32) (r : Fin 100000) (q : Fin 128) :
    refNormed (F := Ideal) y γ β (ix2 r q)
      = ((y (ix2 r q) - refMean (F := Ideal) y (ix1 q))
          * Ideal.rsqrt (refVar (F := Ideal) y (ix1 q) + Ideal.ofBits .f32 0x3727C5AC#32)) * γ (ix1 q) + β (ix1 q) := by
  show ((y (ix2 r q) - broadcastInDim S100000x128 ![0, 1] bcast_S1x128_S100000x128_0_1
            (broadcastInDim S1x128 ![1] bcast_S128_S1x128_1 (refMean (F := Ideal) y)) (ix2 r q))
          * broadcastInDim S100000x128 ![0, 1] bcast_S1x128_S100000x128_0_1 (broadcastInDim S1x128 ![1] bcast_S128_S1x128_1
              (Host.rsqrt (addf (refVar (F := Ideal) y) (broadcastInDim S128 ![] bcast_S_S128 (constant (F := Ideal) S_ .f32 0x3727C5AC#32))))) (ix2 r q))
        * broadcastInDim S100000x128 ![0, 1] bcast_S1x128_S100000x128_0_1 (broadcastInDim S1x128 ![1] bcast_S128_S1x128_1 γ) (ix2 r q)
      + broadcastInDim S100000x128 ![0, 1] bcast_S1x128_S100000x128_0_1 (broadcastInDim S1x128 ![1] bcast_S128_S1x128_1 β) (ix2 r q) = _
  rw [rowBcast_apply, rowBcast_apply, rowBcast_apply, rowBcast_apply]
  show ((y (ix2 r q) - refMean (F := Ideal) y (ix1 q))
          * Ideal.rsqrt (refVar (F := Ideal) y (ix1 q)
              + broadcastInDim S128 ![] bcast_S_S128 (constant (F := Ideal) S_ .f32 0x3727C5AC#32) (ix1 q))) * γ (ix1 q) + β (ix1 q) = _
  rw [scalarBcast_apply, constant_apply]

/-! ## The perceptron -/

/-- The program's contraction record is the plain matrix product's. -/
theorem dot_eq : dot_S100000x128_S128x128_S100000x128_1_0_0_1_n_n = DotDims.plain 100000 128 128 := rfl

/-- The perceptron's output at (r, q): the hidden layer — row r of the summed input times the first matrix plus the
    first bias, cut off below at zero — times column q of the second matrix, plus the second bias. -/
theorem refHidden_apply (h agg : FVec Ideal S100000x128 .f32) (W1 : FVec Ideal S128x128 .f32) (b1 : FVec Ideal S128 .f32)
    (W2 : FVec Ideal S128x128 .f32) (b2 : FVec Ideal S128 .f32) (r : Fin 100000) (q : Fin 128) :
    refHidden (F := Ideal) h agg W1 b1 W2 b2 (ix2 r q)
      = (∑ k : Fin 128, max ((∑ j : Fin 128, (h (ix2 r j) + agg (ix2 r j)) * W1 (ix2 j k)) + b1 (ix1 k)) 0 * W2 (ix2 k q))
          + b2 (ix1 q) := by
  show Host.dotGeneral dot_S100000x128_S128x128_S100000x128_1_0_0_1_n_n none
        (maximumf (addf (Host.dotGeneral dot_S100000x128_S128x128_S100000x128_1_0_0_1_n_n none (addf h agg) W1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) W2 (ix2 r q)
      + broadcastInDim S100000x128 ![0, 1] bcast_S1x128_S100000x128_0_1 (broadcastInDim S1x128 ![1] bcast_S128_S1x128_1 b2) (ix2 r q) = _
  rw [rowBcast_apply, Cert.Lib.PlainDot.dotGeneral_apply (M := 100000) (K := 128) (N := 128) _ dot_eq]
  refine congrArg (· + b2 (ix1 q)) (Finset.sum_congr rfl fun k _ => ?_)
  show max (Host.dotGeneral dot_S100000x128_S128x128_S100000x128_1_0_0_1_n_n none (addf h agg) W1 (ix2 r k) + broadcastInDim S100000x128 ![0, 1] bcast_S1x128_S100000x128_0_1 (broadcastInDim S1x128 ![1] bcast_S128_S1x128_1 b1) (ix2 r k))
        (broadcastInDim S100000x128 ![] bcast_S_S100000x128 (constant (F := Ideal) S_ .f32 0x00000000#32) (ix2 r k)) * W2 (ix2 k q) = _
  rw [rowBcast_apply, scalarBcast_apply, constant_apply, Cert.Consts.ofBits_zero,
    Cert.Lib.PlainDot.dotGeneral_apply (M := 100000) (K := 128) (N := 128) _ dot_eq]
  rfl

/-! ## The variance -/

/-- A vector laid along one row, read at (0, q), is the vector at q. -/
theorem oneRow_apply {α : Type} (v : S128.Idx → α) (q : Fin 128) :
    broadcastInDim S1x128 ![1] bcast_S128_S1x128_1 v (ix2 (0 : Fin 1) q) = v (ix1 q) := by
  refine broadcastInDim_apply ![1] bcast_S128_S1x128_1 v (ix2 (0 : Fin 1) q) (ix1 q) ?_
  intro a
  fin_cases a
  show q.val = if (128 : ℕ) = 1 then 0 else q.val
  rw [if_neg (by decide)]

/-- The count the variance divides by is the number of rows: the correction subtracted is the integer zero. -/
theorem refCount_apply : refCount (F := Ideal) ix0 = N := by
  show Ideal.ofBits .f32 0x47C35000#32 - (((0#32 : BitVec 32).toInt : ℝ) : EReal) = N
  rw [Cert.Consts.ofBits_rows, Cert.Consts.sitofp_zero, sub_zero]

theorem N_pos : (0 : EReal) < N := by
  show (0 : EReal) < (((100000 : ℕ) : ℝ) : EReal)
  exact_mod_cast (by norm_num : (0 : ℝ) < ((100000 : ℕ) : ℝ))

/-- The deviation at (r, q), as the variance function forms it, is the entry less the column mean. -/
theorem refCentered_apply (y : FVec Ideal S100000x128 .f32) (r : Fin 100000) (q : Fin 128) :
    refCentered (F := Ideal) y (ix2 r q) = y (ix2 r q) - refMean (F := Ideal) y (ix1 q) := by
  show y (ix2 r q) - broadcastInDim S100000x128 ![0, 1] bcast_S1x128_S100000x128_0_1
      (Host.divf
        (broadcastInDim S1x128 ![1] bcast_S128_S1x128_1
          (Host.reduceAdd y (constant (F := Ideal) S_ .f32 0x00000000#32) reducesTo_S100000x128_S128_d0 h_S_))
        (broadcastInDim S1x128 ![] bcast_S_S1x128 (constant (F := Ideal) S_ .f32 0x47C35000#32))) (ix2 r q) = _
  rw [broadcastInDim_oneRow_apply bcast_S1x128_S100000x128_0_1 _ r q, refMean_apply]
  show y (ix2 r q) - Ideal.div
      (broadcastInDim S1x128 ![1] bcast_S128_S1x128_1
        (Host.reduceAdd y (constant (F := Ideal) S_ .f32 0x00000000#32) reducesTo_S100000x128_S128_d0 h_S_) (ix2 (0 : Fin 1) q))
      (broadcastInDim S1x128 ![] bcast_S_S1x128 (constant (F := Ideal) S_ .f32 0x47C35000#32) (ix2 (0 : Fin 1) q)) = _
  rw [oneRow_apply, sumRows_apply, scalarBcast_apply, constant_apply, Cert.Consts.ofBits_rows]

/-- The variance of column q: the sum over the rows of the squared deviations from the column mean, divided by the
    number of rows (the count is positive, so the select keeps the quotient). -/
theorem refVar_apply (y : FVec Ideal S100000x128 .f32) (q : Fin 128) :
    refVar (F := Ideal) y (ix1 q)
      = Ideal.div (∑ r : Fin 100000, (y (ix2 r q) - refMean (F := Ideal) y (ix1 q)) * (y (ix2 r q) - refMean (F := Ideal) y (ix1 q))) N := by
  show Scalar.select
      (broadcastInDim S128 ![] bcast_S_S128 (cmpf .ogt (refCount (F := Ideal)) (constant (F := Ideal) S_ .f32 0x00000000#32)) (ix1 q))
      (Ideal.div
        (Host.reduceAdd (mulf (refCentered (F := Ideal) y) (refCentered (F := Ideal) y)) (constant (F := Ideal) S_ .f32 0x00000000#32)
          reducesTo_S100000x128_S128_d0 h_S_ (ix1 q))
        (broadcastInDim S128 ![] bcast_S_S128 (refCount (F := Ideal)) (ix1 q)))
      (broadcastInDim S128 ![] bcast_S_S128 (id (constant (F := Ideal) S_ .f32 0x7FC00000#32)) (ix1 q)) = _
  rw [scalarBcast_apply, scalarBcast_apply, sumRows_apply, refCount_apply]
  have hc : cmpf .ogt (refCount (F := Ideal)) (constant (F := Ideal) S_ .f32 0x00000000#32) ix0 = 1#1 := by
    show Ideal.cmp .ogt (refCount (F := Ideal) ix0) (Ideal.ofBits .f32 0x00000000#32) = 1#1
    rw [refCount_apply, Cert.Consts.ofBits_zero]
    show BitVec.ofBool (decide ((0 : EReal) < N)) = 1#1
    rw [decide_eq_true N_pos]
    rfl
  rw [hc, select_one]
  refine congrArg (Ideal.div · N) (Finset.sum_congr rfl fun r _ => ?_)
  show refCentered (F := Ideal) y (ix2 r q) * refCentered (F := Ideal) y (ix2 r q) = _
  rw [refCentered_apply]

end Cert.ReferenceIdeal.RefVal

end
-- ==== Proof.HiddenRef.lean ====
/-
  The reference's hidden layer is the hidden layer.

  Entry by entry, the reference's mixed input is the gated mix  σ(g₀) · a + σ(g₁) · b;  its aggregated neighbours are the
  neighbourhood sum of that mix (the same gather of rows and the same scattered addition from zero, over the same edge
  list); and its two-layer perceptron adds each bias vector along the rows, which is to add the vector viewed as a one-row
  matrix. Hence entry (r, q) of the reference's hidden layer is the perceptron of row r of the mix plus its neighbourhood sum.
-/
import proofs.«149305_j21114059227218_1_alg».proof.Proof.Hidden
import proofs.«149305_j21114059227218_1_alg».proof.Proof.RefVal
import proofs.«149305_j21114059227218_1_alg».proof.Proof.RefRun

noncomputable section

open scoped BigOperators
open Idealize.ShloMosaic Idealize.ShloMosaic.ValueIdx

namespace Cert.Hidden

open Cert.Moments

/-- The reference's mixed input is the gated mix, as functions of the index. -/
theorem refMixed_eq (a3 : FVec Ideal ⟨1, ![2]⟩ .f32) (a0 a1 : FVec Ideal ⟨2, ![100000, 128]⟩ .f32) :
    Cert.ReferenceIdeal.RefRun.refMixed (F := Ideal) a3 a0 a1 = Cert.KernelIdeal.Region0.mixed a3 a0 a1 := by
  funext j
  obtain ⟨r, q, rfl⟩ : ∃ (r : Fin 100000) (q : Fin 128), j = ix2 r q := ⟨_, _, eq_ix2 j⟩
  exact Cert.ReferenceIdeal.RefVal.refMixed_apply a3 a0 a1 r q

/-- The reference's aggregated neighbours are the neighbourhood sum: the two spell the same operations. -/
theorem refAgg_eq (h : FVec Ideal ⟨2, ![100000, 128]⟩ .f32) (e : IVec ⟨2, ![2, 1600000]⟩ 32) :
    Cert.ReferenceIdeal.RefRun.refAgg (F := Ideal) h e = Cert.KernelIdeal.HostK.neighbourSum (F := Ideal) h e := rfl

/-- Entry (r, q) of the reference's hidden layer, computed from the reference's own mix and aggregate, is the hidden
    layer's entry (r, q). -/
theorem ref_eq_hid (a0 a1 : FVec Ideal ⟨2, ![100000, 128]⟩ .f32) (a2 : IVec ⟨2, ![2, 1600000]⟩ 32)
    (a3 : FVec Ideal ⟨1, ![2]⟩ .f32) (a4 : FVec Ideal ⟨2, ![128, 128]⟩ .f32) (a5 : FVec Ideal ⟨1, ![128]⟩ .f32)
    (a6 : FVec Ideal ⟨2, ![128, 128]⟩ .f32) (a7 : FVec Ideal ⟨1, ![128]⟩ .f32) (r : Fin 100000) (q : Fin 128) :
    Cert.ReferenceIdeal.RefRun.refHidden (F := Ideal) (Cert.ReferenceIdeal.RefRun.refMixed (F := Ideal) a3 a0 a1)
        (Cert.ReferenceIdeal.RefRun.refAgg (F := Ideal) (Cert.ReferenceIdeal.RefRun.refMixed (F := Ideal) a3 a0 a1) a2)
        a4 a5 a6 a7 (ix2 r q)
      = hid a0 a1 a2 a3 a4 a5 a6 a7 r q := by
  refine (Cert.ReferenceIdeal.RefVal.refHidden_apply _ _ a4 a5 a6 a7 r q).trans ?_
  unfold hid Cert.KernelIdeal.Region1.mlpRow
  refine congrArg₂ (· + ·) (Finset.sum_congr rfl fun k _ => ?_) (Cert.KernelIdeal.HostK.oneRow_apply a7 q).symm
  refine congrArg₂ (· * ·) (congrArg₂ max (congrArg₂ (· + ·) (Finset.sum_congr rfl fun j _ => ?_)
    (Cert.KernelIdeal.HostK.oneRow_apply a5 k).symm) rfl) rfl
  rw [refAgg_eq, refMixed_eq]

end Cert.Hidden

end
-- ==== Proof.NormLaw.lean ====
/-
  The variance of a column of 100000 real numbers, in its two forms, on the extended reals.
-/
import proofs.«149305_j21114059227218_1_alg».proof.Proof.Moments

noncomputable section

open scoped BigOperators

namespace Cert.Moments

open Idealize.ShloMosaic

/-- The number of rows as an extended real. -/
abbrev rows : EReal := (((100000 : ℕ) : ℝ) : EReal)

/-- For a column of real numbers, the mean of the squares minus the square of the mean is the mean of the squared
    deviations from the mean. -/
theorem var_cols (y : Fin 100000 → EReal) (hy : ∀ r, IsReal (y r)) :
    Ideal.div (∑ r, y r * y r) rows - Ideal.div (∑ r, y r) rows * Ideal.div (∑ r, y r) rows
      = Ideal.div (∑ r, (y r - Ideal.div (∑ r, y r) rows) * (y r - Ideal.div (∑ r, y r) rows)) rows := by
  choose h hh using hy
  obtain rfl : y = fun r => ((h r : ℝ) : EReal) := funext hh
  exact var_ereal 100000 (by norm_num) h

end Cert.Moments

end
-- ==== Proof.Final.lean ====
/-
  The two programs compute the same normalised array.

  Both programs first form the same hidden array H (the gated mix of the two inputs, plus its neighbourhood sum, through the
  two-layer perceptron) and then normalise each column q of H: subtract the column's mean, multiply by the reciprocal
  square root of the column's variance plus a small constant, scale and shift. They differ only in how the variance is
  written: the kernel accumulates the column's sum and sum of squares and takes  (Σ H²)/n − ((Σ H)/n)²,  the reference takes
  the mean of the squared deviations  (Σ (H − mean)²)/n.  Under the precondition every entry of H is a real number
  (every stage keeps real numbers real), and for real numbers the two forms agree.
-/
import proofs.«149305_j21114059227218_1_alg».proof.Proof.RefVal
import proofs.«149305_j21114059227218_1_alg».proof.Proof.HiddenRef
import proofs.«149305_j21114059227218_1_alg».proof.Proof.NormLaw
import proofs.«149305_j21114059227218_1_alg».proof.Proof.Consts
import proofs.«149305_j21114059227218_1_alg».proof.Proof.Region2

noncomputable section

open scoped BigOperators

namespace Cert.Final

open Idealize.ShloMosaic Idealize.ShloMosaic.ValueIdx Cert.Moments Cert.Hidden
open Cert.ReferenceIdeal.RefRun Cert.ReferenceIdeal.RefVal

/-- ENTRY (r, q) of the reference's result is the kernel's normalisation of the hidden array: the same mean, and a
    variance that is the same number written the other way. -/
theorem result_eq (a0 a1 : FVec Ideal ⟨2, ![100000, 128]⟩ .f32) (a2 : IVec ⟨2, ![2, 1600000]⟩ 32) (a3 : FVec Ideal ⟨1, ![2]⟩ .f32)
    (a4 : FVec Ideal ⟨2, ![128, 128]⟩ .f32) (a5 : FVec Ideal ⟨1, ![128]⟩ .f32) (a6 : FVec Ideal ⟨2, ![128, 128]⟩ .f32)
    (a7 a8 a9 : FVec Ideal ⟨1, ![128]⟩ .f32)
    (h0 : ∀ j, IsReal (a0 j)) (h1 : ∀ j, IsReal (a1 j)) (h3 : ∀ j, IsReal (a3 j)) (h4 : ∀ j, IsReal (a4 j))
    (h5 : ∀ j, IsReal (a5 j)) (h6 : ∀ j, IsReal (a6 j)) (h7 : ∀ j, IsReal (a7 j)) (r : Fin 100000) (q : Fin 128) :
    refNormed (F := Ideal) (refHidden (F := Ideal) (refMixed (F := Ideal) a3 a0 a1)
        (refAgg (F := Ideal) (refMixed (F := Ideal) a3 a0 a1) a2) a4 a5 a6 a7) a8 a9 (ix2 r q)
      = Cert.KernelIdeal.Region2.normedAt (hid a0 a1 a2 a3 a4 a5 a6 a7 r q)
          (Ideal.div (∑ r', hid a0 a1 a2 a3 a4 a5 a6 a7 r' q) (Ideal.ofBits .f32 0x47C35000#32))
          (Ideal.div (∑ r', hid a0 a1 a2 a3 a4 a5 a6 a7 r' q * hid a0 a1 a2 a3 a4 a5 a6 a7 r' q) (Ideal.ofBits .f32 0x47C35000#32)
            - Ideal.div (∑ r', hid a0 a1 a2 a3 a4 a5 a6 a7 r' q) (Ideal.ofBits .f32 0x47C35000#32)
              * Ideal.div (∑ r', hid a0 a1 a2 a3 a4 a5 a6 a7 r' q) (Ideal.ofBits .f32 0x47C35000#32))
          (a8 (ix1 q)) (a9 (ix1 q)) := by
  rw [refNormed_apply, refVar_apply, refMean_apply]
  simp only [ref_eq_hid]
  unfold Cert.KernelIdeal.Region2.normedAt
  rw [Cert.Consts.ofBits_rows,
    var_cols (fun r' => hid a0 a1 a2 a3 a4 a5 a6 a7 r' q) (fun r' => hid_isReal a0 a1 a2 a3 a4 a5 a6 a7 h0 h1 h3 h4 h5 h6 h7 r' q)]

end Cert.Final

end
-- ==== Proof.lean ====
/-
  A gated mix of two node-feature arrays, summed over each node's neighbours, passed through a two-layer perceptron and
  normalised column by column: the kernel against its array-language reference, on the extended reals.

  Both programs compute, for the ten argument arrays, the hidden array
      H = (max ((x + agg x) · W1 + b1) 0) · W2 + b2,    x = logistic(w₀) · x0 + logistic(w₁) · x1,
  where agg x adds, onto each node's row, the rows of x at the sources of the edges that end at the node. The kernel does
  this in three passes over blocks of 5000 rows (the mix; the perceptron together with the running column sums of H and of
  H²; the normalisation), with the neighbourhood sum between the first two; the reference in one sweep. Then each column q
  of H is normalised:  ((H − mean) · (var + ε)^(-1/2)) · γ + β.  The two programs agree on the mean, (Σ H)/n, and write the
  variance differently: the kernel as (Σ H²)/n − mean², the reference as (Σ (H − mean)²)/n. These are the same number
  when every entry of H is finite, and under the precondition (every float argument finite) every stage keeps its
  entries finite: a logistic value, a product, a finite sum, a maximum of finite numbers are finite.

  The three run claims: the kernel's two printed programs run, leaving their arguments as launched (the frame of the
  three passes and the host operations between them); the reference's run is its straight line of host operations read
  back. The idealisation rewrote nothing, so the word-level program and the idealised one are the same text.
-/
import proofs.«149305_j21114059227218_1_alg».proof.Defs
import proofs.«149305_j21114059227218_1_alg».proof.Proof.Gen.Kernel
import proofs.«149305_j21114059227218_1_alg».proof.Proof.Gen.Kernel.Frame
import proofs.«149305_j21114059227218_1_alg».proof.Proof.Gen.KernelIdeal
import proofs.«149305_j21114059227218_1_alg».proof.Proof.Gen.KernelIdeal.Frame
import proofs.«149305_j21114059227218_1_alg».proof.Proof.Gen.ReferenceIdeal
import proofs.«149305_j21114059227218_1_alg».proof.Proof.Gen.Pre_finite_inputs
import proofs.«149305_j21114059227218_1_alg».proof.Proof.KRun
import proofs.«149305_j21114059227218_1_alg».proof.Proof.KVal
import proofs.«149305_j21114059227218_1_alg».proof.Proof.RefRun
import proofs.«149305_j21114059227218_1_alg».proof.Proof.PreReal
import proofs.«149305_j21114059227218_1_alg».proof.Proof.Final

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealised kernel runs and leaves its arguments as launched. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealisation rewrote no operation. -/
theorem preserves : Cert.preserves_Kernel_KernelIdeal := trivial

/-- From memories that agree on the arguments, both programs end with the same result array: entry by entry the
    reference's normalised hidden array is the kernel's, the variance being one number written two ways. -/
theorem algebraic : Cert.algebraic_KernelIdeal_ReferenceIdeal := by
  intro m ρ m' ρ' hpre hagree
  refine ⟨fun c => Cert.KernelIdeal.Gen.W5 m ρ c (Proc.devRef .tc Cert.KernelIdeal.main_v32),
    Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]
  obtain ⟨h0, h1, h3, h4, h5, h6, h7, -, -⟩ := Cert.PreReal.real_of_pre _ _ _ _ _ _ _ _ _ _ (hpre c)
  funext j
  obtain ⟨r, q, rfl⟩ : ∃ (r : Fin 100000) (q : Fin 128), j = ValueIdx.ix2 r q := ⟨j 0, j 1, ValueIdx.eq_ix2 j⟩
  exact (Cert.Final.result_eq _ _ _ _ _ _ _ _ _ _ h0 h1 h3 h4 h5 h6 h7 r q).trans
    (Cert.KernelIdeal.KVal.res_apply m ρ c r q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
